-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S3072x1024 .f32) (main_arg2 : FVec F S3072 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩
abbrev S3072x1 : Shape := ⟨2, ![3072, 1]⟩
abbrev S1x3072 : Shape := ⟨2, ![1, 3072]⟩
abbrev S4x16x2048x64 : Shape := ⟨4, ![4, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S512x3072 : Shape := ⟨2, ![512, 3072]⟩
abbrev S512x16x64 : Shape := ⟨3, ![512, 16, 64]⟩
abbrev S16x512x64 : Shape := ⟨3, ![16, 512, 64]⟩
abbrev S1x4x512x64 : Shape := ⟨4, ![1, 4, 512, 64]⟩
abbrev S1x4x2048x64 : Shape := ⟨4, ![1, 4, 2048, 64]⟩
abbrev S1x512x256 : Shape := ⟨3, ![1, 512, 256]⟩
abbrev S4x512x64 : Shape := ⟨3, ![4, 512, 64]⟩
abbrev S4x2048x64 : Shape := ⟨3, ![4, 2048, 64]⟩
abbrev S1x512x64 : Shape := ⟨3, ![1, 512, 64]⟩
abbrev S512x64 : Shape := ⟨2, ![512, 64]⟩
abbrev S1x2048x64 : Shape := ⟨3, ![1, 2048, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S512x256 : Shape := ⟨2, ![512, 256]⟩
abbrev S8192x1024 : Shape := ⟨2, ![8192, 1024]⟩
abbrev S1x1024 : Shape := ⟨2, ![1, 1024]⟩

abbrev nBuf : Space → Nat
  | .hbm => 31
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S3072, .i32⟩
  | .hbm, ⟨6, _⟩ => ⟨S3072, .i1⟩
  | .hbm, ⟨7, _⟩ => ⟨S3072, .i1⟩
  | .hbm, ⟨8, _⟩ => ⟨S_, .i32⟩
  | .hbm, ⟨9, _⟩ => ⟨S3072, .i32⟩
  | .hbm, ⟨10, _⟩ => ⟨S3072, .i32⟩
  | .hbm, ⟨11, _⟩ => ⟨S3072, .i32⟩
  | .hbm, ⟨12, _⟩ => ⟨S3072x1, .i32⟩
  | .hbm, ⟨13, _⟩ => ⟨S3072x1024, .f32⟩
  | .hbm, ⟨14, _⟩ => ⟨S3072x1024, .bf16⟩
  | .hbm, ⟨15, _⟩ => ⟨S_, .i32⟩
  | .hbm, ⟨16, _⟩ => ⟨S3072, .i32⟩
  | .hbm, ⟨17, _⟩ => ⟨S3072, .i32⟩
  | .hbm, ⟨18, _⟩ => ⟨S3072, .i32⟩
  | .hbm, ⟨19, _⟩ => ⟨S3072x1, .i32⟩
  | .hbm, ⟨20, _⟩ => ⟨S3072, .f32⟩
  | .hbm, ⟨21, _⟩ => ⟨S1x3072, .f32⟩
  | .hbm, ⟨22, _⟩ => ⟨S4x16x2048x64, .bf16⟩
  | .hbm, ⟨23, _⟩ => ⟨S4x16x2048x64, .bf16⟩
  | .hbm, ⟨24, _⟩ => ⟨S4x16x2048x64, .bf16⟩
  | .hbm, ⟨25, _⟩ => ⟨S4x2048x1024, .bf16⟩
  | .hbm, ⟨26, _⟩ => ⟨S1024x1024, .bf16⟩
  | .hbm, ⟨27, _⟩ => ⟨S8192x1024, .bf16⟩
  | .hbm, ⟨28, _⟩ => ⟨S1x1024, .f32⟩
  | .hbm, ⟨29, _⟩ => ⟨S8192x1024, .f32⟩
  | .hbm, ⟨30, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S3072x1024, .bf16⟩
  | .local _ .vmem, ⟨3, _⟩ => ⟨S1x3072, .f32⟩
  | .local _ .vmem, ⟨4, _⟩ => ⟨S1x16x512x64, .bf16⟩
  | .local _ .vmem, ⟨5, _⟩ => ⟨S1x16x512x64, .bf16⟩
  | .local _ .vmem, ⟨6, _⟩ => ⟨S1x16x512x64, .bf16⟩
  | .local _ .vmem, ⟨7, _⟩ => ⟨S1x16x512x64, .bf16⟩
  | .local _ .vmem, ⟨8, _⟩ => ⟨S1x16x512x64, .bf16⟩
  | .local _ .vmem, ⟨9, _⟩ => ⟨S1x16x512x64, .bf16⟩
  | .local _ .vmem, ⟨10, _⟩ => ⟨S1x4x512x64, .bf16⟩
  | .local _ .vmem, ⟨11, _⟩ => ⟨S1x4x512x64, .bf16⟩
  | .local _ .vmem, ⟨12, _⟩ => ⟨S1x4x2048x64, .bf16⟩
  | .local _ .vmem, ⟨13, _⟩ => ⟨S1x4x2048x64, .bf16⟩
  | .local _ .vmem, ⟨14, _⟩ => ⟨S1x4x2048x64, .bf16⟩
  | .local _ .vmem, ⟨15, _⟩ => ⟨S1x4x2048x64, .bf16⟩
  | .local _ .vmem, ⟨16, _⟩ => ⟨S1x512x256, .bf16⟩
  | .local _ .vmem, ⟨17, _⟩ => ⟨S1x512x256, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![4, 4, 4], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x4x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x4x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x4x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S3072 : S_.BroadcastsInDim S3072 (![] : Fin 0 → Fin S3072.rank)
  bcast_S3072_S3072x1_0 : S3072.BroadcastsInDim S3072x1 (![0] : Fin 1 → Fin S3072x1.rank)
  bitsLt_bf16_f32 : FTy.bits .bf16 < FTy.bits .f32
  shapeCasts_S3072_S1x3072 : S3072.ShapeCasts S1x3072
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  shapeCasts_S512x1024_S512x16x64 : S512x1024.ShapeCasts S512x16x64
  slices_S512x3072_o0_1024_S512x1024 : S512x3072.Slices ![0, 1024] S512x1024
  slices_S512x3072_o0_2048_S512x1024 : S512x3072.Slices ![0, 2048] S512x1024
  transposes_S512x16x64_p1_0_2_S16x512x64 : S512x16x64.Transposes [1, 0, 2] S16x512x64
  inb_S1x16x512x64_S1x16x512x64_0_0_0_0 : ∀ a, (![0, 0, 0, 0] : Fin 4 → Nat) a + S1x16x512x64.size a ≤ S1x16x512x64.size a
  h_S1x16x512x64 : 0 < S1x16x512x64.numel
  shapeCasts_S1x16x512x64_S16x512x64 : S1x16x512x64.ShapeCasts S16x512x64
  shapeCasts_S16x512x64_S1x16x512x64 : S16x512x64.ShapeCasts S1x16x512x64
  packedbf16_S1x16x512x64_S1x16x512x64_0_0_0_0 : (Rect.unit (s := S1x16x512x64) ![0, 0, 0, 0] S1x16x512x64.size inb_S1x16x512x64_S1x16x512x64_0_0_0_0).PackedRows (EltTy.packing .bf16)
  inb_S1x4x512x64_S1x4x512x64_0_0_0_0 : ∀ a, (![0, 0, 0, 0] : Fin 4 → Nat) a + S1x4x512x64.size a ≤ S1x4x512x64.size a
  h_S1x4x512x64 : 0 < S1x4x512x64.numel
  shapeCasts_S1x4x512x64_S4x512x64 : S1x4x512x64.ShapeCasts S4x512x64
  inb_S1x4x2048x64_S1x4x2048x64_0_0_0_0 : ∀ a, (![0, 0, 0, 0] : Fin 4 → Nat) a + S1x4x2048x64.size a ≤ S1x4x2048x64.size a
  h_S1x4x2048x64 : 0 < S1x4x2048x64.numel
  shapeCasts_S1x4x2048x64_S4x2048x64 : S1x4x2048x64.ShapeCasts S4x2048x64
  slices_S4x512x64_o0_0_0_S1x512x64 : S4x512x64.Slices ![0, 0, 0] S1x512x64
  shapeCasts_S1x512x64_S512x64 : S1x512x64.ShapeCasts S512x64
  slices_S4x2048x64_o0_0_0_S1x2048x64 : S4x2048x64.Slices ![0, 0, 0] S1x2048x64
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  slices_S4x512x64_o1_0_0_S1x512x64 : S4x512x64.Slices ![1, 0, 0] S1x512x64
  slices_S4x2048x64_o1_0_0_S1x2048x64 : S4x2048x64.Slices ![1, 0, 0] S1x2048x64
  slices_S4x512x64_o2_0_0_S1x512x64 : S4x512x64.Slices ![2, 0, 0] S1x512x64
  slices_S4x2048x64_o2_0_0_S1x2048x64 : S4x2048x64.Slices ![2, 0, 0] S1x2048x64
  slices_S4x512x64_o3_0_0_S1x512x64 : S4x512x64.Slices ![3, 0, 0] S1x512x64
  slices_S4x2048x64_o3_0_0_S1x2048x64 : S4x2048x64.Slices ![3, 0, 0] S1x2048x64
  concatenates_S512x64_S512x64_S512x64_S512x64_S512x256_d1 : Shape.Concatenates [S512x64, S512x64, S512x64, S512x64] S512x256 1
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  packedbf16_S1x512x256_S1x512x256_0_0_0 : (Rect.unit (s := S1x512x256) ![0, 0, 0] S1x512x256.size inb_S1x512x256_S1x512x256_0_0_0).PackedRows (EltTy.packing .bf16)
  shapeCasts_S4x2048x1024_S8192x1024 : S4x2048x1024.ShapeCasts S8192x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S4x2048x1024 : S8192x1024.ShapeCasts S4x2048x1024
  gather_S3072x1024_S3072x1_S3072x1024_1_0_n_n_0_1_11024_wf : GatherDims.WF S3072x1024 S3072x1 S3072x1024 [1] [0] [] [0] [] 1 ![1, 1024]
  gather_S3072_S3072x1_S3072_n_0_n_n_0_1_1_wf : GatherDims.WF S3072 S3072x1 S3072 [] [0] [] [0] [] 1 ![1]
  dot_S512x1024_S3072x1024_S512x3072_1_1_0_0_n_n_wf : DotDims.WF S512x1024 S3072x1024 S512x3072 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512x64.size a ≤ S4x16x2048x64.size a
  hwx0_3 : ∀ i : grid0.Coords, EltTy.bits .bf16 = 32 ∨ (Rect.block (s := S4x16x2048x64) S1x16x512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x512x64.size a ≤ S4x16x2048x64.size a
  hwx0_4 : ∀ i : grid0.Coords, EltTy.bits .bf16 = 32 ∨ (Rect.block (s := S4x16x2048x64) S1x16x512x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x512x64.size a ≤ S4x16x2048x64.size a
  hwx0_5 : ∀ i : grid0.Coords, EltTy.bits .bf16 = 32 ∨ (Rect.block (s := S4x16x2048x64) S1x16x512x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4x512x64.size a ≤ S4x16x2048x64.size a
  hwx1_0 : ∀ i : grid1.Coords, EltTy.bits .bf16 = 32 ∨ (Rect.block (s := S4x16x2048x64) S1x4x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4x2048x64.size a ≤ S4x16x2048x64.size a
  hwx1_1 : ∀ i : grid1.Coords, EltTy.bits .bf16 = 32 ∨ (Rect.block (s := S4x16x2048x64) S1x4x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4x2048x64.size a ≤ S4x16x2048x64.size a
  hwx1_2 : ∀ i : grid1.Coords, EltTy.bits .bf16 = 32 ∨ (Rect.block (s := S4x16x2048x64) S1x4x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x256.size a ≤ S4x2048x1024.size a
  hwx1_3 : ∀ i : grid1.Coords, EltTy.bits .bf16 = 32 ∨ (Rect.block (s := S4x2048x1024) S1x512x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def gather_S3072x1024_S3072x1_S3072x1024_1_0_n_n_0_1_11024 : GatherDims S3072x1024 S3072x1 S3072x1024 where
  offsetDims := [1]
  collapsedSliceDims := [0]
  operandBatchingDims := []
  startIndicesBatchingDims := []
  startIndexMap := [0]
  indexVectorDim := 1
  sliceSizes := ![1, 1024]
  wf := gather_S3072x1024_S3072x1_S3072x1024_1_0_n_n_0_1_11024_wf
def gather_S3072_S3072x1_S3072_n_0_n_n_0_1_1 : GatherDims S3072 S3072x1 S3072 where
  offsetDims := []
  collapsedSliceDims := [0]
  operandBatchingDims := []
  startIndicesBatchingDims := []
  startIndexMap := [0]
  indexVectorDim := 1
  sliceSizes := ![1]
  wf := gather_S3072_S3072x1_S3072_n_0_n_n_0_1_1_wf
def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S1x16x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S1x16x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_2) S1x16x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v12_0) S1x4x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_1) S1x4x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12_2) S1x4x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x16x192 : Shape := ⟨4, ![4, 2048, 16, 192]⟩
abbrev S4x16x2048x192 : Shape := ⟨4, ![4, 16, 2048, 192]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S4x2048x16x192, .f32⟩
  | .hbm, ⟨10, _⟩ => ⟨S4x16x2048x192, .f32⟩
  | .hbm, ⟨11, _⟩ => ⟨S4x16x2048x64, .f32⟩
  | .hbm, ⟨12, _⟩ => ⟨S4x16x2048x64, .f32⟩
  | .hbm, ⟨13, _⟩ => ⟨S4x16x2048x64, .f32⟩
  | .hbm, ⟨14, _⟩ => ⟨S4x16x2048x2048, .f32⟩
  | .hbm, ⟨15, _⟩ => ⟨S_, .f32⟩
  | .hbm, ⟨16, _⟩ => ⟨S4x16x2048x2048, .f32⟩
  | .hbm, ⟨17, _⟩ => ⟨S4x16x2048x2048, .f32⟩
  | .hbm, ⟨18, _⟩ => ⟨S_, .f32⟩
  | .hbm, ⟨19, _⟩ => ⟨S4x16x2048, .f32⟩
  | .hbm, ⟨20, _⟩ => ⟨S_, .f32⟩
  | .hbm, ⟨21, _⟩ => ⟨S4x16x2048, .f32⟩
  | .hbm, ⟨22, _⟩ => ⟨S4x16x2048, .f32⟩
  | .hbm, ⟨23, _⟩ => ⟨S4x16x2048x1, .f32⟩
  | .hbm, ⟨24, _⟩ => ⟨S4x16x2048x2048, .f32⟩
  | .hbm, ⟨25, _⟩ => ⟨S4x16x2048x2048, .f32⟩
  | .hbm, ⟨26, _⟩ => ⟨S4x16x2048x2048, .f32⟩
  | .hbm, ⟨27, _⟩ => ⟨S_, .f32⟩
  | .hbm, ⟨28, _⟩ => ⟨S4x16x2048, .f32⟩
  | .hbm, ⟨29, _⟩ => ⟨S4x16x2048x1, .f32⟩
  | .hbm, ⟨30, _⟩ => ⟨S4x16x2048x2048, .f32⟩
  | .hbm, ⟨31, _⟩ => ⟨S4x16x2048x2048, .f32⟩
  | .hbm, ⟨32, _⟩ => ⟨S4x16x2048x64, .f32⟩
  | .hbm, ⟨33, _⟩ => ⟨S4x2048x16x64, .f32⟩
  | .hbm, ⟨34, _⟩ => ⟨S4x2048x1024, .f32⟩
  | .hbm, ⟨35, _⟩ => ⟨S4x2048x1024, .f32⟩
  | .hbm, ⟨36, _⟩ => ⟨S1x1x1024, .f32⟩
  | .hbm, ⟨37, _⟩ => ⟨S4x2048x1024, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  shapeCasts_S4x2048x3072_S4x2048x16x192 : S4x2048x3072.ShapeCasts S4x2048x16x192
  transposes_S4x2048x16x192_S4x16x2048x192_0_2_1_3 : S4x2048x16x192.Transposes [0, 2, 1, 3] S4x16x2048x192
  slices_S4x16x2048x192_S4x16x2048x64_0_0_0_0 : S4x16x2048x192.Slices ![0, 0, 0, 0] S4x16x2048x64
  slices_S4x16x2048x192_S4x16x2048x64_0_0_0_64 : S4x16x2048x192.Slices ![0, 0, 0, 64] S4x16x2048x64
  slices_S4x16x2048x192_S4x16x2048x64_0_0_0_128 : S4x16x2048x192.Slices ![0, 0, 0, 128] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.KernelRun.lean ====
/-
  The idealized kernel's run with its result named.

  @main is six segments: host operations, the projection region, the attention region, host operations, the output
  projection region, host operations. The buffer contents at each boundary are a fold from the launch memory
  (`Gen.W1` … `Gen.W6`): a stretch of host operations applies them, a region leaves each of its arrays at what its
  write-backs fold to and every other buffer as it found it. Every weakly fair execution terminates without a
  fault in a state where every buffer that outlives the regions holds the last fold's contents; read at the five
  arguments this is the frame, and read ALSO at the result buffer it names the result: the last fold at that buffer.
-/
import proofs.«128969_j32315333935918_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution of @main terminates, nothing faulting, with the result buffer at the last fold's
    contents and the five argument arrays as launched. -/
theorem run_result : θ_run defs (onTc (τ := τ) (main (F := F))) ⟨m, fun _ => 0, ρ⟩ (fun r => ∀ c : Dev nD,
      r.2.mem ((c.tc : Thread nD τ).loc main_v18) = W6 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v18 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Run

end
-- ==== Proof.AttentionSpec.lean ====
/-
  Multi-head attention over the extended reals, written once as a function of the five argument arrays.

  The activations are [batch 4, position 2048, feature 1024]. A fused projection sends each position's feature
  row to 3072 numbers: row `e` of the fused weight against the feature row, plus the fused bias at `e`. The
  3072 numbers of a position are laid out head by head, 192 per head: 64 query lanes, then 64 key lanes, then
  64 value lanes, so lane `d` of part `p` of head `h` is row `h·192 + p·64 + d` (`fusedRow`).
  Per batch and head, the score of a query position against a key position is the dot product of the two
  64-lane rows times one eighth; a row of scores is shifted by its maximum, exponentiated and divided by the
  row's sum (the softmax), and the context row is the probabilities' combination of the value rows. The 16
  context rows of a position are laid side by side (column `h·64 + d`) and sent through the output projection:
  row `f` of the output weight against that 1024-wide row, plus the output bias at `f`.

  Everything is stated over literal extents with coordinates of literal `Fin` types.
-/
import Idealize.ShloMosaic.PureOps.Ideal
import Idealize.ShloMosaic.Lib.ValueIdx

noncomputable section

namespace Cert.Attention

open Idealize.ShloMosaic Idealize.ShloMosaic.ValueIdx
open scoped BigOperators

/-- Activations: [batch, position, feature]. -/
abbrev SAct : Shape := ⟨3, ![4, 2048, 1024]⟩
/-- Per-head arrays: [batch, head, position, lane]. -/
abbrev SHeads : Shape := ⟨4, ![4, 16, 2048, 64]⟩
/-- The fused projection's weight [3072, 1024] and bias [3072]. -/
abbrev SWin : Shape := ⟨2, ![3072, 1024]⟩
abbrev SBin : Shape := ⟨1, ![3072]⟩
/-- The output projection's weight [1024, 1024] and bias [1024]. -/
abbrev SWout : Shape := ⟨2, ![1024, 1024]⟩
abbrev SBout : Shape := ⟨1, ![1024]⟩

/-- The fused weight's row that produces lane `d` of part `p` (0 query, 1 key, 2 value) of head `h`. -/
def fusedRow (p : Fin 3) (h : Fin 16) (d : Fin 64) : Fin 3072 := ⟨h.val * 192 + p.val * 64 + d.val, by omega⟩

/-- One entry of the fused projection, in head layout. -/
def projAt (p : Fin 3) (x : SAct.Idx → EReal) (w : SWin.Idx → EReal) (bias : SBin.Idx → EReal)
    (b : Fin 4) (h : Fin 16) (s : Fin 2048) (d : Fin 64) : EReal :=
  (∑ k : Fin 1024, x (ix3 b s k) * w (ix2 (fusedRow p h d) k)) + bias (ix1 (fusedRow p h d))

/-- Part `p` of the fused projection as a per-head array. -/
def headProj (p : Fin 3) (x : SAct.Idx → EReal) (w : SWin.Idx → EReal) (bias : SBin.Idx → EReal) : SHeads.Idx → EReal :=
  fun i => projAt p x w bias (i 0) (i 1) (i 2) (i 3)

theorem headProj_ix4 (p : Fin 3) (x : SAct.Idx → EReal) (w : SWin.Idx → EReal) (bias : SBin.Idx → EReal)
    (b : Fin 4) (h : Fin 16) (s : Fin 2048) (d : Fin 64) :
    headProj p x w bias (ix4 b h s d) = projAt p x w bias b h s d := rfl

/-- The score of query position `q` against key position `k`: the lanes' dot product times one eighth
    (the word `0x3E000000` is the float 0.125). -/
def scoreAt (Q K : SHeads.Idx → EReal) (b : Fin 4) (h : Fin 16) (q k : Fin 2048) : EReal :=
  (∑ d : Fin 64, Q (ix4 b h q d) * K (ix4 b h k d)) * Ideal.ofBits .f32 0x3E000000#32

/-- A score row's maximum, folded from the word `0xFF800000` (minus infinity). -/
def rowMaxAt (Q K : SHeads.Idx → EReal) (b : Fin 4) (h : Fin 16) (q : Fin 2048) : EReal :=
  (Finset.univ : Finset (Fin 2048)).fold max (Ideal.ofBits .f32 0xFF800000#32) (fun k => scoreAt Q K b h q k)

/-- The shifted score, exponentiated. -/
def expAt (Q K : SHeads.Idx → EReal) (b : Fin 4) (h : Fin 16) (q k : Fin 2048) : EReal :=
  Ideal.exp (scoreAt Q K b h q k - rowMaxAt Q K b h q)

/-- The row's sum of exponentials. -/
def denomAt (Q K : SHeads.Idx → EReal) (b : Fin 4) (h : Fin 16) (q : Fin 2048) : EReal :=
  ∑ k : Fin 2048, expAt Q K b h q k

/-- The softmax probability. -/
def probAt (Q K : SHeads.Idx → EReal) (b : Fin 4) (h : Fin 16) (q k : Fin 2048) : EReal :=
  Ideal.div (expAt Q K b h q k) (denomAt Q K b h q)

/-- Lane `d` of the context row of query position `q`. -/
def ctxAt (Q K V : SHeads.Idx → EReal) (b : Fin 4) (h : Fin 16) (q : Fin 2048) (d : Fin 64) : EReal :=
  ∑ k : Fin 2048, probAt Q K b h q k * V (ix4 b h k d)

/-- Column `e` of a position's 1024-wide context row belongs to head `e / 64`, lane `e % 64`. -/
def headOf (e : Fin 1024) : Fin 16 := ⟨e.val / 64, by omega⟩
def laneOf (e : Fin 1024) : Fin 64 := ⟨e.val % 64, by omega⟩

/-- The context rows of all heads side by side: [batch, position, 1024]. -/
def ctx (Q K V : SHeads.Idx → EReal) : SAct.Idx → EReal :=
  fun i => ctxAt Q K V (i 0) (headOf (i 2)) (i 1) (laneOf (i 2))

theorem ctx_ix3 (Q K V : SHeads.Idx → EReal) (b : Fin 4) (s : Fin 2048) (e : Fin 1024) :
    ctx Q K V (ix3 b s e) = ctxAt Q K V b (headOf e) s (laneOf e) := rfl

/-- One entry of the output projection. -/
def outAt (A : SAct.Idx → EReal) (w : SWout.Idx → EReal) (bias : SBout.Idx → EReal)
    (b : Fin 4) (s : Fin 2048) (f : Fin 1024) : EReal :=
  (∑ e : Fin 1024, A (ix3 b s e) * w (ix2 f e)) + bias (ix1 f)

/-- The whole function: the result array of the five argument arrays. -/
def result (x : SAct.Idx → EReal) (wIn : SWin.Idx → EReal) (bIn : SBin.Idx → EReal)
    (wOut : SWout.Idx → EReal) (bOut : SBout.Idx → EReal) : SAct.Idx → EReal :=
  fun i => outAt (ctx (headProj 0 x wIn bIn) (headProj 1 x wIn bIn) (headProj 2 x wIn bIn)) wOut bOut (i 0) (i 1) (i 2)

theorem result_ix3 (x : SAct.Idx → EReal) (wIn : SWin.Idx → EReal) (bIn : SBin.Idx → EReal)
    (wOut : SWout.Idx → EReal) (bOut : SBout.Idx → EReal) (b : Fin 4) (s : Fin 2048) (f : Fin 1024) :
    result x wIn bIn wOut bOut (ix3 b s f)
      = outAt (ctx (headProj 0 x wIn bIn) (headProj 1 x wIn bIn) (headProj 2 x wIn bIn)) wOut bOut b s f := rfl

/-! ## The same pieces in the layouts the three stages of the blocked computation use -/

/-- The fused bias as a one-row matrix [1, 3072], the output bias as [1, 1024], and the activations with batch and
    position flattened to 8192 rows. -/
abbrev SBinRow : Shape := ⟨2, ![1, 3072]⟩
abbrev SBoutRow : Shape := ⟨2, ![1, 1024]⟩
abbrev SRows : Shape := ⟨2, ![8192, 1024]⟩

/-- The row of the REARRANGED fused weight — all query rows first, then all key rows, then all value rows, each part
    head by head — that produces lane `d` of part `p` of head `h`. -/
def partRow (p : Fin 3) (h : Fin 16) (d : Fin 64) : Fin 3072 := ⟨p.val * 1024 + h.val * 64 + d.val, by omega⟩

/-- One entry of the fused projection taken against a rearranged weight and a one-row bias. -/
def projRowsAt (p : Fin 3) (x : SAct.Idx → EReal) (w : SWin.Idx → EReal) (bias : SBinRow.Idx → EReal)
    (b : Fin 4) (h : Fin 16) (s : Fin 2048) (d : Fin 64) : EReal :=
  (∑ k : Fin 1024, x (ix3 b s k) * w (ix2 (partRow p h d) k)) + bias (ix2 0 (partRow p h d))

/-- Part `p` of that projection as a per-head array. -/
def projRows (p : Fin 3) (x : SAct.Idx → EReal) (w : SWin.Idx → EReal) (bias : SBinRow.Idx → EReal) : SHeads.Idx → EReal :=
  fun i => projRowsAt p x w bias (i 0) (i 1) (i 2) (i 3)

theorem projRows_ix4 (p : Fin 3) (x : SAct.Idx → EReal) (w : SWin.Idx → EReal) (bias : SBinRow.Idx → EReal)
    (b : Fin 4) (h : Fin 16) (s : Fin 2048) (d : Fin 64) :
    projRows p x w bias (ix4 b h s d) = projRowsAt p x w bias b h s d := rfl

/-- One entry of the output projection over flattened rows and a one-row bias. -/
def linAt (A : SRows.Idx → EReal) (w : SWout.Idx → EReal) (bias : SBoutRow.Idx → EReal) (r : Fin 8192) (f : Fin 1024) : EReal :=
  (∑ e : Fin 1024, A (ix2 r e) * w (ix2 f e)) + bias (ix2 0 f)

/-- The output projection over flattened rows. -/
def lin (A : SRows.Idx → EReal) (w : SWout.Idx → EReal) (bias : SBoutRow.Idx → EReal) : SRows.Idx → EReal :=
  fun i => linAt A w bias (i 0) (i 1)

theorem lin_ix2 (A : SRows.Idx → EReal) (w : SWout.Idx → EReal) (bias : SBoutRow.Idx → EReal) (r : Fin 8192) (f : Fin 1024) :
    lin A w bias (ix2 r f) = linAt A w bias r f := rfl

end Cert.Attention

end
-- ==== Proof.Rearrange.lean ====
/-
  The host operations before the projection region rearrange the fused weight and bias: a literal table of 3072
  row numbers, and a gather of the weight's rows (and of the bias's entries) by that table. Entry `i` of the table,
  for `i = p·1024 + h·64 + d`, is `h·192 + p·64 + d`: the rearranged weight lists all query rows, then all key rows,
  then all value rows, each part head by head, where the original interleaves the three parts within each head.
-/
import proofs.«128969_j32315333935918_2_alg».proof.KernelIdeal
import proofs.«128969_j32315333935918_2_alg».proof.Proof.Gen.KernelIdeal
import proofs.«128969_j32315333935918_2_alg».proof.Proof.AttentionSpec
import Idealize.ShloMosaic.Lib.ValueIdx

noncomputable section

namespace Cert.KernelIdeal.Rearrange

open Cert.KernelIdeal Idealize.ShloMosaic Idealize.ShloMosaic.ValueIdx Cert.Attention

/-- The original row that the rearranged weight's row `i` copies. -/
def srcRow (i : Fin 3072) : Fin 3072 := ⟨(i.val % 1024 / 64) * 192 + (i.val / 1024) * 64 + i.val % 64, by omega⟩

/-- The rearranged row of part `p`, head `h`, lane `d` copies the original row of that part, head and lane. -/
theorem srcRow_partRow (p : Fin 3) (h : Fin 16) (d : Fin 64) : srcRow (partRow p h d) = fusedRow p h d := by
  apply Fin.ext
  show (p.val * 1024 + h.val * 64 + d.val) % 1024 / 64 * 192 + (p.val * 1024 + h.val * 64 + d.val) / 1024 * 64
    + (p.val * 1024 + h.val * 64 + d.val) % 64 = h.val * 192 + p.val * 64 + d.val
  have hp := p.isLt; have hh := h.isLt; have hd := d.isLt
  omega

/-- Every entry of the literal table, read as a signed start index and clamped into the weight's rows, is the
    original row it names: all 3072 entries, by evaluation. -/
theorem table_entry : ∀ i : Fin 3072, min (lit0 i).toInt.toNat (3072 - 1) = (srcRow i).val := by decide +kernel

variable {α : Type}

/-- A gather of the rows of a [3072, 1024] array by a column of 3072 start indices, read at `(r, k)`: the operand at
    the row the `r`-th start index names (read signed, clamped into the rows), column `k`. -/
theorem gather_rows_apply (x : S3072x1024.Idx → α) (idx : IVec S3072x1 32) (r : Fin 3072) (k : Fin 1024)
    (q : Fin 3072) (hq : min (idx (ix2 r 0)).toInt.toNat (3072 - 1) = q.val) :
    Host.gather gather_S3072x1024_S3072x1_S3072x1024_1_0_n_n_0_1_11024 x idx (ix2 r k) = x (ix2 q k) := by
  unfold Host.gather
  congr 1
  funext a
  refine Fin.ext ?_
  match a with
  | ⟨0, _⟩ =>
    show gather_S3072x1024_S3072x1_S3072x1024_1_0_n_n_0_1_11024.start (ix2 r k) idx 0
      + gather_S3072x1024_S3072x1_S3072x1024_1_0_n_n_0_1_11024.batchCoord (ix2 r k) 0
      + gather_S3072x1024_S3072x1_S3072x1024_1_0_n_n_0_1_11024.offCoord (ix2 r k) 0 = q.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S3072x1024_S3072x1_S3072x1024_1_0_n_n_0_1_11024.startIndexMap from List.mem_singleton.mpr rfl)]
    have hsi : gather_S3072x1024_S3072x1_S3072x1024_1_0_n_n_0_1_11024.siIdx (ix2 r k)
        ⟨List.idxOf (0 : Fin 2) gather_S3072x1024_S3072x1_S3072x1024_1_0_n_n_0_1_11024.startIndexMap,
          List.idxOf_lt_length_iff.2 (List.mem_singleton.mpr rfl)⟩ = ix2 r 0 := by
      funext b; refine Fin.ext ?_
      match b with
      | ⟨0, _⟩ => rfl
      | ⟨1, _⟩ => rfl
    rw [hsi]
    exact hq
  | ⟨1, _⟩ =>
    show gather_S3072x1024_S3072x1_S3072x1024_1_0_n_n_0_1_11024.start (ix2 r k) idx 1
      + gather_S3072x1024_S3072x1_S3072x1024_1_0_n_n_0_1_11024.batchCoord (ix2 r k) 1
      + gather_S3072x1024_S3072x1_S3072x1024_1_0_n_n_0_1_11024.offCoord (ix2 r k) 1 = k.val
    rw [GatherDims.batchCoord_eq_zero _ _ _ List.not_mem_nil]
    unfold GatherDims.start
    rw [dif_neg (show (1 : Fin 2) ∉ gather_S3072x1024_S3072x1_S3072x1024_1_0_n_n_0_1_11024.startIndexMap by decide)]
    simp only [Nat.add_zero, Nat.zero_add]
    rfl

/-- A gather of the entries of a [3072] array by a column of 3072 start indices, read at `r`. -/
theorem gather_entries_apply (x : S3072.Idx → α) (idx : IVec S3072x1 32) (r : Fin 3072)
    (q : Fin 3072) (hq : min (idx (ix2 r 0)).toInt.toNat (3072 - 1) = q.val) :
    Host.gather gather_S3072_S3072x1_S3072_n_0_n_n_0_1_1 x idx (ix1 r) = x (ix1 q) := by
  unfold Host.gather
  congr 1
  funext a
  refine Fin.ext ?_
  match a with
  | ⟨0, _⟩ =>
    show gather_S3072_S3072x1_S3072_n_0_n_n_0_1_1.start (ix1 r) idx 0
      + gather_S3072_S3072x1_S3072_n_0_n_n_0_1_1.batchCoord (ix1 r) 0
      + gather_S3072_S3072x1_S3072_n_0_n_n_0_1_1.offCoord (ix1 r) 0 = q.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ gather_S3072_S3072x1_S3072_n_0_n_n_0_1_1.startIndexMap from List.mem_singleton.mpr rfl)]
    have hsi : gather_S3072_S3072x1_S3072_n_0_n_n_0_1_1.siIdx (ix1 r)
        ⟨List.idxOf (0 : Fin 1) gather_S3072_S3072x1_S3072_n_0_n_n_0_1_1.startIndexMap,
          List.idxOf_lt_length_iff.2 (List.mem_singleton.mpr rfl)⟩ = ix2 r 0 := by
      funext b; refine Fin.ext ?_
      match b with
      | ⟨0, _⟩ => rfl
      | ⟨1, _⟩ => rfl
    rw [hsi]
    exact hq

end Cert.KernelIdeal.Rearrange

end
-- ==== Proof.HostGlue.lean ====
/-
  From the three regions' arrays to the result.

  Between the launch and the return the program's buffers pass through six boundaries. Reading them backwards from
  the result: the result is the output projection's [8192, 1024] array regrouped as [4, 2048, 1024] (row
  `b·2048 + s`); that array is the output projection of the attention array regrouped the other way, against the
  output weight and the output bias as a one-row matrix; the attention array is the context of the three per-head
  arrays the projection region left; and those are the fused projection's parts against the rearranged weight and
  bias, whose row `p·1024 + h·64 + d` copies the original row `h·192 + p·64 + d`. Composed, this is the
  specification's function of the five arguments as launched.
-/
import proofs.«128969_j32315333935918_2_alg».proof.Proof.Gen.KernelIdeal.Frame
import proofs.«128969_j32315333935918_2_alg».proof.Proof.AttentionSpec
import proofs.«128969_j32315333935918_2_alg».proof.Proof.Rearrange
import Idealize.ShloMosaic.Lib.StableHlo.Run
import Idealize.ShloMosaic.Lib.Pipeline.Value
import Idealize.ShloMosaic.Lib.ValueIdx

noncomputable section

namespace Cert.KernelIdeal.Glue

open Cert.KernelIdeal Cert.KernelIdeal.Gen Cert.KernelIdeal.Rearrange Cert.Attention
open Idealize.ShloMosaic Idealize.ShloMosaic.TcCoe Idealize.ShloMosaic.Tactic Idealize.SL.Sem
open Idealize.ShloMosaic.StableHlo Idealize.ShloMosaic.ValueIdx

variable (m : (ℓ : Loc nD τ sig) → Buf (Elt Ideal) ℓ) (ρ : Dev nD → PrngReg)

/-! ## The start indices the two gathers take -/

/-- The column of start indices: the literal table, as the host operations pass it on (a select on an all-false
    mask keeps the table itself). -/
def tableIdx : IVec S3072x1 32 :=
  broadcastInDim S3072x1 ![0] bcast_S3072_S3072x1_0
    (select (constantI S3072 1 0#1)
      (addi (fun i => lit0 (S3072.rowMajor i)) (broadcastInDim S3072 ![] bcast_S_S3072 (constantI S_ 32 3072#32)))
      fun i => lit0 (S3072.rowMajor i))

theorem tableIdx_apply (r : Fin 3072) : tableIdx (ix2 r 0) = lit0 r := by
  unfold tableIdx
  rw [broadcastInDim_apply _ _ _ (ix2 r 0) (ix1 r) (fun a => by match a with | ⟨0, _⟩ => rfl)]
  show Scalar.select (0#1 : BitVec 1) _ (lit0 (S3072.rowMajor (ix1 r))) = _
  rw [select_zero]
  exact congrArg lit0 (Fin.ext (Shape.rowMajor_val_one _))

theorem table_row (r : Fin 3072) : min (tableIdx (ix2 r 0)).toInt.toNat (3072 - 1) = (srcRow r).val := by
  rw [tableIdx_apply]; exact table_entry r

/-! ## The projection region's entry -/

theorem entry_x (c : Dev nD) :
    (V1 m ρ c main_arg0 : S4x2048x1024.Idx → EReal) = m ((c : Thread nD τ).loc main_arg0) := by
  show StableHlo.after hostOps0 (W0 m ρ c) (Proc.devRef .tc main_arg0) = _
  after_results

theorem entry_w (c : Dev nD) (r : Fin 3072) (k : Fin 1024) :
    (V1 m ρ c main_v5 : S3072x1024.Idx → EReal) (ix2 r k)
      = (m ((c : Thread nD τ).loc main_arg1) : S3072x1024.Idx → EReal) (ix2 (srcRow r) k) := by
  have e : @Eq (S3072x1024.Idx → EReal) (V1 m ρ c main_v5)
      (truncf (F := Ideal) .bf16 (Host.gather gather_S3072x1024_S3072x1_S3072x1024_1_0_n_n_0_1_11024
          (m ((c : Thread nD τ).loc main_arg1) : FVec Ideal S3072x1024 .f32) tableIdx) bitsLt_bf16_f32) := by
    show StableHlo.after hostOps0 (W0 m ρ c) (Proc.devRef .tc main_v5) = _
    after_results; rfl
  rw [e]
  exact gather_rows_apply _ _ r k (srcRow r) (table_row r)

theorem entry_b (c : Dev nD) (r : Fin 3072) :
    (V1 m ρ c main_v11 : S1x3072.Idx → EReal) (ix2 0 r)
      = (m ((c : Thread nD τ).loc main_arg2) : S3072.Idx → EReal) (ix1 (srcRow r)) := by
  have e : @Eq (S1x3072.Idx → EReal) (V1 m ρ c main_v11)
      (shapeCast S1x3072 (Host.gather gather_S3072_S3072x1_S3072_n_0_n_n_0_1_1
          (m ((c : Thread nD τ).loc main_arg2) : S3072.Idx → EReal) tableIdx) shapeCasts_S3072_S1x3072) := by
    show StableHlo.after hostOps0 (W0 m ρ c) (Proc.devRef .tc main_v11) = _
    after_results; rfl
  rw [e, shapeCast_apply _ _ (ix2 0 r) (ix1 r) (by
    rw [Shape.rowMajor_val_one, Shape.rowMajor_val_two]; show r.val = 0 * 3072 + r.val; omega)]
  exact gather_entries_apply _ _ r (srcRow r) (table_row r)

/-- The rearranged weight and bias give the specification's parts of the fused projection. -/
theorem heads_eq (p : Fin 3) (c : Dev nD) :
    projRows p (V1 m ρ c main_arg0) (V1 m ρ c main_v5) (V1 m ρ c main_v11)
      = headProj p (m ((c : Thread nD τ).loc main_arg0)) (m ((c : Thread nD τ).loc main_arg1)) (m ((c : Thread nD τ).loc main_arg2)) := by
  funext i
  obtain ⟨b, h, s, d, rfl⟩ : ∃ (b : Fin 4) (h : Fin 16) (s : Fin 2048) (d : Fin 64), i = ix4 b h s d :=
    ⟨i 0, i 1, i 2, i 3, eq_ix4 i⟩
  rw [projRows_ix4, headProj_ix4]
  unfold projRowsAt projAt
  rw [entry_b m ρ c (partRow p h d), srcRow_partRow, entry_x m ρ c]
  refine congrArg (· + _) (Finset.sum_congr rfl fun k _ => ?_)
  rw [entry_w m ρ c (partRow p h d) k, srcRow_partRow]

/-! ## The output projection region's entry -/

theorem kept_wout (c : Dev nD) :
    W3 m ρ c (Proc.devRef .tc main_arg3) = m ((c : Thread nD τ).loc main_arg3) :=
  (W3_of_ne m ρ c main_arg3 (by decide)).trans ((W2_of_ne m ρ c main_arg3 (by decide)).trans (by
    show StableHlo.after hostOps0 (W0 m ρ c) (Proc.devRef .tc main_arg3) = _
    after_results))

theorem kept_bout (c : Dev nD) :
    W3 m ρ c (Proc.devRef .tc main_arg4) = m ((c : Thread nD τ).loc main_arg4) :=
  (W3_of_ne m ρ c main_arg4 (by decide)).trans ((W2_of_ne m ρ c main_arg4 (by decide)).trans (by
    show StableHlo.after hostOps0 (W0 m ρ c) (Proc.devRef .tc main_arg4) = _
    after_results))

theorem entry_wout (c : Dev nD) :
    (V4 m ρ c main_v14 : S1024x1024.Idx → EReal) = m ((c : Thread nD τ).loc main_arg3) := by
  have e : @Eq (S1024x1024.Idx → EReal) (V4 m ρ c main_v14)
      (truncf (F := Ideal) .bf16 (W3 m ρ c (Proc.devRef .tc main_arg3) : FVec Ideal S1024x1024 .f32) bitsLt_bf16_f32) := by
    show StableHlo.after hostOps2 (W3 m ρ c) (Proc.devRef .tc main_v14) = _
    after_results
  rw [e, kept_wout]; rfl

theorem entry_bout (c : Dev nD) (f : Fin 1024) :
    (V4 m ρ c main_v16 : S1x1024.Idx → EReal) (ix2 0 f)
      = (m ((c : Thread nD τ).loc main_arg4) : S1024.Idx → EReal) (ix1 f) := by
  have e : @Eq (S1x1024.Idx → EReal) (V4 m ρ c main_v16)
      (shapeCast S1x1024 (W3 m ρ c (Proc.devRef .tc main_arg4) : S1024.Idx → EReal) shapeCasts_S1024_S1x1024) := by
    show StableHlo.after hostOps2 (W3 m ρ c) (Proc.devRef .tc main_v16) = _
    after_results; rfl
  rw [e, shapeCast_apply _ _ (ix2 0 f) (ix1 f) (by
    rw [Shape.rowMajor_val_one, Shape.rowMajor_val_two]; show f.val = 0 * 1024 + f.val; omega), kept_bout]

/-- Row `b·2048 + s` of the flattened activations. -/
def flatRow (b : Fin 4) (s : Fin 2048) : Fin 8192 := ⟨b.val * 2048 + s.val, by omega⟩

theorem entry_rows (c : Dev nD) (b : Fin 4) (s : Fin 2048) (e : Fin 1024) :
    (V4 m ρ c main_v15 : S8192x1024.Idx → EReal) (ix2 (flatRow b s) e)
      = (W3 m ρ c (Proc.devRef .tc main_v13) : S4x2048x1024.Idx → EReal) (ix3 b s e) := by
  have e' : @Eq (S8192x1024.Idx → EReal) (V4 m ρ c main_v15)
      (shapeCast S8192x1024 (W3 m ρ c (Proc.devRef .tc main_v13) : S4x2048x1024.Idx → EReal) shapeCasts_S4x2048x1024_S8192x1024) := by
    show StableHlo.after hostOps2 (W3 m ρ c) (Proc.devRef .tc main_v15) = _
    after_results; rfl
  rw [e', shapeCast_apply _ _ (ix2 (flatRow b s) e) (ix3 b s e) (by
    rw [Shape.rowMajor_val_three, Shape.rowMajor_val_two]
    show (b.val * 2048 + s.val) * 1024 + e.val = (b.val * 2048 + s.val) * 1024 + e.val
    rfl)]

/-! ## The result -/

theorem result_rows (c : Dev nD) (b : Fin 4) (s : Fin 2048) (f : Fin 1024) :
    (W6 m ρ c (Proc.devRef .tc main_v18) : S4x2048x1024.Idx → EReal) (ix3 b s f)
      = (W5 m ρ c (Proc.devRef .tc main_v17) : S8192x1024.Idx → EReal) (ix2 (flatRow b s) f) := by
  have e' : @Eq (S4x2048x1024.Idx → EReal) (W6 m ρ c (Proc.devRef .tc main_v18))
      (shapeCast S4x2048x1024 (W5 m ρ c (Proc.devRef .tc main_v17) : S8192x1024.Idx → EReal) shapeCasts_S8192x1024_S4x2048x1024) := by
    show StableHlo.after hostOps3 (W5 m ρ c) (Proc.devRef .tc main_v18) = _
    after_results; rfl
  rw [e', shapeCast_apply _ _ (ix3 b s f) (ix2 (flatRow b s) f) (by
    rw [Shape.rowMajor_val_three, Shape.rowMajor_val_two]
    show (b.val * 2048 + s.val) * 1024 + f.val = (b.val * 2048 + s.val) * 1024 + f.val
    rfl)]

/-- THE COMPOSITION. Given what each region leaves in its output arrays as a function of the arrays it finds —
    the three parts of the fused projection, the context, the flattened output projection — the result buffer at
    the last boundary is the specification's function of the five arguments as launched. -/
theorem result_eq
    (hq : ∀ (V : (c : Dev nD) → (b : Ref sig .tc) → Buf (Elt Ideal) ((c : Thread nD τ).loc b)) (c : Dev nD),
      (dat0 (F := Ideal) V c).arrAt 3 cfg0.N = projRows 0 (V c main_arg0) (V c main_v5) (V c main_v11))
    (hk : ∀ (V : (c : Dev nD) → (b : Ref sig .tc) → Buf (Elt Ideal) ((c : Thread nD τ).loc b)) (c : Dev nD),
      (dat0 (F := Ideal) V c).arrAt 4 cfg0.N = projRows 1 (V c main_arg0) (V c main_v5) (V c main_v11))
    (hv : ∀ (V : (c : Dev nD) → (b : Ref sig .tc) → Buf (Elt Ideal) ((c : Thread nD τ).loc b)) (c : Dev nD),
      (dat0 (F := Ideal) V c).arrAt 5 cfg0.N = projRows 2 (V c main_arg0) (V c main_v5) (V c main_v11))
    (hctx : ∀ (V : (c : Dev nD) → (b : Ref sig .tc) → Buf (Elt Ideal) ((c : Thread nD τ).loc b)) (c : Dev nD),
      (dat1 (F := Ideal) V c).arrAt 3 cfg1.N = ctx (V c main_v12_0) (V c main_v12_1) (V c main_v12_2))
    (hlin : ∀ (V : (c : Dev nD) → (b : Ref sig .tc) → Buf (Elt Ideal) ((c : Thread nD τ).loc b)) (c : Dev nD),
      (dat2 (F := Ideal) V c).arrAt 3 cfg2.N = lin (V c main_v15) (V c main_v14) (V c main_v16))
    (c : Dev nD) :
    (W6 m ρ c (Proc.devRef .tc main_v18) : S4x2048x1024.Idx → EReal)
      = result (m ((c : Thread nD τ).loc main_arg0)) (m ((c : Thread nD τ).loc main_arg1))
          (m ((c : Thread nD τ).loc main_arg2)) (m ((c : Thread nD τ).loc main_arg3)) (m ((c : Thread nD τ).loc main_arg4)) := by
  have a17 : (W5 m ρ c (Proc.devRef .tc main_v17) : S8192x1024.Idx → EReal) = (dat2 (V4 m ρ) c).arrAt 3 cfg2.N :=
    W5_arr m ρ c 3
  have a13 : (W3 m ρ c (Proc.devRef .tc main_v13) : S4x2048x1024.Idx → EReal) = (dat1 (V2 m ρ) c).arrAt 3 cfg1.N :=
    W3_arr m ρ c 3
  have aq : (V2 m ρ c main_v12_0 : S4x16x2048x64.Idx → EReal) = (dat0 (V1 m ρ) c).arrAt 3 cfg0.N := W2_arr m ρ c 3
  have ak : (V2 m ρ c main_v12_1 : S4x16x2048x64.Idx → EReal) = (dat0 (V1 m ρ) c).arrAt 4 cfg0.N := W2_arr m ρ c 4
  have av : (V2 m ρ c main_v12_2 : S4x16x2048x64.Idx → EReal) = (dat0 (V1 m ρ) c).arrAt 5 cfg0.N := W2_arr m ρ c 5
  funext i
  obtain ⟨b, s, f, rfl⟩ : ∃ (b : Fin 4) (s : Fin 2048) (f : Fin 1024), i = ix3 b s f := ⟨i 0, i 1, i 2, eq_ix3 i⟩
  rw [result_ix3, result_rows m ρ c b s f, a17, hlin (V4 m ρ) c, lin_ix2]
  unfold linAt outAt
  rw [entry_bout m ρ c f, entry_wout m ρ c]
  refine congrArg (· + _) (Finset.sum_congr rfl fun e _ => ?_)
  rw [entry_rows m ρ c b s e, a13, hctx (V2 m ρ) c, aq, ak, av, hq (V1 m ρ) c, hk (V1 m ρ) c, hv (V1 m ρ) c,
    heads_eq m ρ 0 c, heads_eq m ρ 1 c, heads_eq m ρ 2 c]

end Cert.KernelIdeal.Glue

end
-- ==== Proof.QkvValue.lean ====
/-
  The fused query/key/value projection, read as whole arrays.

  The first region of the blocked computation walks a 4 × 4 grid: a batch `b` and a tile of 512 positions. At each
  grid point it multiplies the tile's 512 activation rows [512, 1024] against the whole rearranged weight
  [3072, 1024] (activation row against weight row `e`, summed over the 1024 features), adds the bias row, cuts the
  3072 columns into the query, key and value thirds, splits each third into 16 heads of 64 lanes, moves the head axis
  in front of the row axis, and writes the three [16, 512, 64] tiles to block (b, ·, tile, ·) of the three per-head
  arrays [4, 16, 2048, 64].

  Here: (1) one entry of the 512 × 3072 tile is the dot product over the features plus the bias (`tile_apply`);
  (2) the slice / reshape / head-transpose chain reads entry (h, r, d) of part `p` off column `p·1024 + h·64 + d` of
  that tile (`heads_apply`; `query_apply`, `key_apply`, `value_apply`); (3) so each grid point writes the matching
  block of the whole-array projection `Cert.Attention.projRows p` of the three staged arrays (`flushed_q`,
  `flushed_k`, `flushed_v`); (4) the 16 blocks cover each array (position `s` of batch `b` lies in the block of the
  grid point with batch block `b` and position block `s / 512`), hence the three arrays end holding `projRows 0`,
  `projRows 1`, `projRows 2` of the staged activations, weight and bias (`final_q`, `final_k`, `final_v`). Over the
  extended reals a change of float format is the identity, so the truncations drop out.
-/
import proofs.«128969_j32315333935918_2_alg».proof.KernelIdeal
import proofs.«128969_j32315333935918_2_alg».proof.Proof.Gen.KernelIdeal.Frame
import proofs.«128969_j32315333935918_2_alg».proof.Proof.AttentionSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.QkvValue

open Cert.KernelIdeal Cert.KernelIdeal.Gen Idealize.ShloMosaic Idealize.ShloMosaic.TcCoe Idealize.SL.Sem
open Idealize.ShloMosaic.ValueIdx
open Idealize.ShloMosaic.Pipeline (Dat)
open Cert.Attention (partRow projRows projRowsAt)
open scoped BigOperators

/-! ## The projection tile at an index -/

theorem lhs_val_0 (j : S512x3072.Idx) (q : dot_S512x1024_S3072x1024_S512x3072_1_1_0_0_n_n.contr.Idx) :
    (dot_S512x1024_S3072x1024_S512x3072_1_1_0_0_n_n.lhsIdx j q 0).val = (j 0).val := by
  unfold DotDims.lhsIdx
  rw [dif_neg (show ¬(0 : Fin S512x1024.rank) ∈ dot_S512x1024_S3072x1024_S512x3072_1_1_0_0_n_n.lhsBatch by decide),
    dif_pos (show (0 : Fin S512x1024.rank) ∈ dot_S512x1024_S3072x1024_S512x3072_1_1_0_0_n_n.lhsNonContracting by decide)]
  rfl

theorem lhs_val_1 (j : S512x3072.Idx) (q : dot_S512x1024_S3072x1024_S512x3072_1_1_0_0_n_n.contr.Idx) :
    (dot_S512x1024_S3072x1024_S512x3072_1_1_0_0_n_n.lhsIdx j q 1).val = (q ⟨0, by decide⟩).val :=
  dot_S512x1024_S3072x1024_S512x3072_1_1_0_0_n_n.lhsIdx_val_of_single rfl j q

theorem rhs_val_0 (j : S512x3072.Idx) (q : dot_S512x1024_S3072x1024_S512x3072_1_1_0_0_n_n.contr.Idx) :
    (dot_S512x1024_S3072x1024_S512x3072_1_1_0_0_n_n.rhsIdx j q 0).val = (j 1).val := by
  unfold DotDims.rhsIdx
  rw [dif_neg (show ¬(0 : Fin S3072x1024.rank) ∈ dot_S512x1024_S3072x1024_S512x3072_1_1_0_0_n_n.rhsBatch by decide),
    dif_pos (show (0 : Fin S3072x1024.rank) ∈ dot_S512x1024_S3072x1024_S512x3072_1_1_0_0_n_n.rhsNonContracting by decide)]
  rfl

theorem rhs_val_1 (j : S512x3072.Idx) (q : dot_S512x1024_S3072x1024_S512x3072_1_1_0_0_n_n.contr.Idx) :
    (dot_S512x1024_S3072x1024_S512x3072_1_1_0_0_n_n.rhsIdx j q 1).val = (q ⟨0, by decide⟩).val :=
  dot_S512x1024_S3072x1024_S512x3072_1_1_0_0_n_n.rhsIdx_val_of_single rfl j q

/-- Left operand of the tile's matrix product at output entry `(r, e)` and contraction position `k`: entry `(r, k)`. -/
theorem lhs_at (r : Fin 512) (e : Fin 3072) (k : Fin 1024) :
    dot_S512x1024_S3072x1024_S512x3072_1_1_0_0_n_n.lhsIdx (ix2 r e) ((contrEquiv1 dot_S512x1024_S3072x1024_S512x3072_1_1_0_0_n_n 1024 rfl rfl).symm k) = ix2 r k := by
  have hk := contrEquiv1_symm_val dot_S512x1024_S3072x1024_S512x3072_1_1_0_0_n_n 1024 rfl rfl k
  funext a
  apply Fin.ext
  match a with
  | ⟨0, _⟩ => exact lhs_val_0 _ _
  | ⟨1, _⟩ => exact (lhs_val_1 _ _).trans hk

/-- Right operand: entry `(e, k)` of the weight. -/
theorem rhs_at (r : Fin 512) (e : Fin 3072) (k : Fin 1024) :
    dot_S512x1024_S3072x1024_S512x3072_1_1_0_0_n_n.rhsIdx (ix2 r e) ((contrEquiv1 dot_S512x1024_S3072x1024_S512x3072_1_1_0_0_n_n 1024 rfl rfl).symm k) = ix2 e k := by
  have hk := contrEquiv1_symm_val dot_S512x1024_S3072x1024_S512x3072_1_1_0_0_n_n 1024 rfl rfl k
  funext a
  apply Fin.ext
  match a with
  | ⟨0, _⟩ => exact rhs_val_0 _ _
  | ⟨1, _⟩ => exact (rhs_val_1 _ _).trans hk

/-- Entry `(r, e)` of the 512-row tile `x · wᵀ + bias`: row `r` of the activations' tile against row `e` of the
    weight, summed over the 1024 features, plus the bias at `e`. -/
theorem tile_apply (x0 : Vec Ideal S1x512x1024 .f32) (x1 : Vec Ideal S3072x1024 .bf16) (x2 : Vec Ideal S1x3072 .f32)
    (r : Fin 512) (e : Fin 3072) :
    k0_pay1 x0 x1 x2 (ix2 r e) = (∑ k : Fin 1024, x0 (ix3 0 r k) * x1 (ix2 e k)) + x2 (ix2 0 e) := by
  unfold k0_pay1
  refine (addf_apply _ _ _).trans ?_
  refine congrArg₂ (· + ·) ((Ideal.matmul_constant_zero_apply _ none _ _ (ix2 r e)).trans ?_) ?_
  · rw [← Equiv.sum_comp (contrEquiv1 dot_S512x1024_S3072x1024_S512x3072_1_1_0_0_n_n 1024 rfl rfl).symm]
    refine Finset.sum_congr rfl fun k _ => ?_
    rw [lhs_at, rhs_at]
    refine congrArg₂ (· * ·) ?_ ?_
    · exact shapeCast_1ab_ab_apply x0 _ r k
    · rw [shapeCast_self]
  · rw [shapeCast_self]
    exact broadcastTo_1b_ab_apply x2 _ r e

/-! ## The three per-head tiles at an index -/

/-- A 512×3072 tile cut to the 1024 columns from `o = p·1024`, split into 16 heads of 64 lanes, with the head
    axis moved in front of the row axis and a unit axis added: entry `(·, h, r, d)` is the tile's entry
    `(r, p·1024 + h·64 + d)`. -/
theorem heads_apply (o : Nat) (p : Fin 3) (ho : o = p.val * 1024) (Y : FVec Ideal S512x3072 .f32)
    (hs : S512x3072.Slices ![0, o] S512x1024) (h1 : S512x1024.ShapeCasts S512x16x64)
    (h2 : S512x16x64.Transposes [1, 0, 2] S16x512x64) (hlt : FTy.bits .bf16 < FTy.bits .f32)
    (h3 : S16x512x64.ShapeCasts S1x16x512x64) (u : Fin 1) (h : Fin 16) (r : Fin 512) (d : Fin 64) :
    shapeCast S1x16x512x64 (truncf .bf16 (transpose S16x512x64 [1, 0, 2] (shapeCast S512x16x64
        (extractStridedSlice S512x1024 ![0, o] Y hs) h1) h2) hlt) h3 (ix4 u h r d)
      = Y (ix2 r (partRow p h d)) := by
  refine (shapeCast_abc_1abc_apply _ h3 u h r d).trans ?_
  refine (truncf_apply _ hlt (ix3 h r d)).trans ?_
  refine (transpose_apply [1, 0, 2] _ h2 (ix3 h r d) (ix3 r h d) fun b => ?_).trans ?_
  · match b with
    | ⟨0, _⟩ => rfl
    | ⟨1, _⟩ => rfl
    | ⟨2, _⟩ => rfl
  have hc : h.val * 64 + d.val < 1024 := by have := h.isLt; have := d.isLt; omega
  refine (shapeCast_apply _ h1 (ix3 r h d) (ix2 r (⟨h.val * 64 + d.val, hc⟩ : Fin 1024)) ?_).trans ?_
  · rw [Shape.rowMajor_val_two, Shape.rowMajor_val_three]
    show r.val * 1024 + (h.val * 64 + d.val) = (r.val * 16 + h.val) * 64 + d.val
    omega
  refine slice2_axis1_apply o Y hs r (⟨h.val * 64 + d.val, hc⟩ : Fin 1024) (partRow p h d) ?_
  show p.val * 1024 + h.val * 64 + d.val = o + (h.val * 64 + d.val)
  omega

/-- The query tile: part 0. -/
theorem query_apply (x0 : Vec Ideal S1x512x1024 .f32) (x1 : Vec Ideal S3072x1024 .bf16) (x2 : Vec Ideal S1x3072 .f32)
    (u : Fin 1) (h : Fin 16) (r : Fin 512) (d : Fin 64) :
    k0_pay2 x0 x1 x2 (ix4 u h r d)
      = (∑ k : Fin 1024, x0 (ix3 0 r k) * x1 (ix2 (partRow 0 h d) k)) + x2 (ix2 0 (partRow 0 h d)) := by
  unfold k0_pay2
  exact (heads_apply 0 0 rfl _ _ _ _ _ _ u h r d).trans (tile_apply x0 x1 x2 r (partRow 0 h d))

/-- The key tile: part 1. -/
theorem key_apply (x0 : Vec Ideal S1x512x1024 .f32) (x1 : Vec Ideal S3072x1024 .bf16) (x2 : Vec Ideal S1x3072 .f32)
    (u : Fin 1) (h : Fin 16) (r : Fin 512) (d : Fin 64) :
    k0_pay3 x0 x1 x2 (ix4 u h r d)
      = (∑ k : Fin 1024, x0 (ix3 0 r k) * x1 (ix2 (partRow 1 h d) k)) + x2 (ix2 0 (partRow 1 h d)) := by
  unfold k0_pay3
  exact (heads_apply 1024 1 rfl _ _ _ _ _ _ u h r d).trans (tile_apply x0 x1 x2 r (partRow 1 h d))

/-- The value tile: part 2. -/
theorem value_apply (x0 : Vec Ideal S1x512x1024 .f32) (x1 : Vec Ideal S3072x1024 .bf16) (x2 : Vec Ideal S1x3072 .f32)
    (u : Fin 1) (h : Fin 16) (r : Fin 512) (d : Fin 64) :
    k0_pay4 x0 x1 x2 (ix4 u h r d)
      = (∑ k : Fin 1024, x0 (ix3 0 r k) * x1 (ix2 (partRow 2 h d) k)) + x2 (ix2 0 (partRow 2 h d)) := by
  unfold k0_pay4
  exact (heads_apply 2048 2 rfl _ _ _ _ _ _ u h r d).trans (tile_apply x0 x1 x2 r (partRow 2 h d))

/-! ## From the tiles to the whole arrays -/

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl

/-- A tile of the blocked computation is the matching tile of the whole-array projection: if the staged activations
    hold rows of batch `i 0` around position `i 2`, and the staged weight and bias are the whole weight and bias, then
    a tile function that reads as the projection entry by entry (`hpay`) agrees with `projRows p` at the array index
    `i` that has the tile index `j`'s head and lane. -/
theorem tile_eq_projRows (p : Fin 3)
    (pay : Vec Ideal S1x512x1024 .f32 → Vec Ideal S3072x1024 .bf16 → Vec Ideal S1x3072 .f32 → Vec Ideal S1x16x512x64 .bf16)
    (hpay : ∀ x0 x1 x2 (u : Fin 1) (h : Fin 16) (r : Fin 512) (d : Fin 64), pay x0 x1 x2 (ix4 u h r d)
      = (∑ k : Fin 1024, x0 (ix3 0 r k) * x1 (ix2 (partRow p h d) k)) + x2 (ix2 0 (partRow p h d)))
    (X : Cert.Attention.SAct.Idx → EReal) (W : Cert.Attention.SWin.Idx → EReal) (B : Cert.Attention.SBinRow.Idx → EReal)
    (x0 : Vec Ideal S1x512x1024 .f32) (x1 : Vec Ideal S3072x1024 .bf16) (x2 : Vec Ideal S1x3072 .f32)
    (j : S1x16x512x64.Idx) (i : Cert.Attention.SHeads.Idx)
    (h1 : (i 1).val = (j 1).val) (h3 : (i 3).val = (j 3).val)
    (hx0 : ∀ k : Fin 1024, x0 (ix3 0 (j 2) k) = X (ix3 (i 0) (i 2) k))
    (hx1 : ∀ (e : Fin 3072) (k : Fin 1024), x1 (ix2 e k) = W (ix2 e k))
    (hx2 : ∀ e : Fin 3072, x2 (ix2 0 e) = B (ix2 0 e)) :
    pay x0 x1 x2 j = projRows p X W B i := by
  obtain ⟨u, h, r, d, rfl⟩ : ∃ (u : Fin 1) (h : Fin 16) (r : Fin 512) (d : Fin 64), j = ix4 u h r d :=
    ⟨j 0, j 1, j 2, j 3, eq_ix4 j⟩
  obtain ⟨b, h', s, d', rfl⟩ : ∃ (b : Fin 4) (h' : Fin 16) (s : Fin 2048) (d' : Fin 64), i = ix4 b h' s d' :=
    ⟨i 0, i 1, i 2, i 3, eq_ix4 i⟩
  obtain rfl : h' = h := Fin.ext h1
  obtain rfl : d' = d := Fin.ext h3
  rw [hpay, Cert.Attention.projRows_ix4]
  unfold projRowsAt
  refine congrArg₂ (· + ·) (Finset.sum_congr rfl fun k _ => congrArg₂ (· * ·) (hx0 k) (hx1 _ k)) (hx2 _)

variable (V : (c : Dev nD) → (b : Ref sig .tc) → Buf (Elt Ideal) ((c : Thread nD τ).loc b))

/-- The whole-array projection of part `p` from the three arrays the region stages. -/
abbrev proj (p : Fin 3) (c : Dev nD) : Cert.Attention.SHeads.Idx → EReal :=
  projRows p (V c main_arg0) (V c main_v5) (V c main_v11)

/-! ### Output window 3: part 0 -/

/-- The index maps, decided over the 16 grid points: the activations' block moves with the output's batch and
    position blocks, the weight and the bias are staged whole, and the output's block spans all heads and lanes. -/
theorem idx_facts3 : ∀ t : Fin cfg0.N,
    win0_0.index t (0 : Fin 3) = win0_3.index t (0 : Fin 4)
    ∧ win0_0.index t (1 : Fin 3) = win0_3.index t (2 : Fin 4)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) ≤ 3 ∧ win0_3.index t (1 : Fin 4) = 0
    ∧ win0_3.index t (2 : Fin 4) ≤ 3 ∧ win0_3.index t (3 : Fin 4) = 0 :=
  (by decide +kernel : ∀ t : Fin grid0.N, _)

/-- Every (batch, position block) pair is some grid point's. -/
theorem idx_onto3 : ∀ (q0 : Fin 4) (q2 : Fin 4), ∃ t : Fin cfg0.N, win0_3.index t = ![q0.val, 0, q2.val, 0] :=
  (by decide +kernel : ∀ (q0 : Fin 4) (q2 : Fin 4), ∃ t : Fin grid0.N, win0_3.index t = ![q0.val, 0, q2.val, 0])

/-- What grid point `t` writes back to window 3's array is its block of the whole-array projection. -/
theorem flushed_q (c : Dev nD) (t : Fin cfg0.N) :
    (dat0 (F := Ideal) V c).flushed 3 t = ((cfg0.win 3).blk t).view.read (Elt Ideal) (proj V 0 c) := by
  show (cfg0.win 3).cut (grid0.coords t) ((dat0 V c).after 3 t) = _
  rw [after0_3]
  unfold out0_3
  rw [View.canon_unit_zero zeros4]
  simp only [View.ld_unit_zero (S := S1x512x1024) zeros3, View.ld_unit_zero (S := S3072x1024) zeros2,
    View.ld_unit_zero (S := S1x3072) zeros2]
  obtain ⟨e0, e1, e2, e3, e4, e5, e6, e7, e8, e9, e10⟩ := idx_facts3 t
  funext j
  show k0_pay2 (iblk0 V c 0 t) (iblk0 V c 1 t) (iblk0 V c 2 t) j = proj V 0 c (((cfg0.win 3).blk t).view.emb j)
  have hj0 : (j 0).val < 1 := (j 0).isLt
  have hj1 : (j 1).val < 16 := (j 1).isLt
  have hj2 : (j 2).val < 512 := (j 2).isLt
  have hj3 : (j 3).val < 64 := (j 3).isLt
  refine tile_eq_projRows 0 k0_pay2 query_apply (V c main_arg0) (V c main_v5) (V c main_v11)
    (iblk0 V c 0 t) (iblk0 V c 1 t) (iblk0 V c 2 t) j (((cfg0.win 3).blk t).view.emb j) ?_ ?_ ?_ ?_ ?_
  · show win0_3.index t (1 : Fin 4) * 16 + 1 * (j 1).val = (j 1).val
    omega
  · show win0_3.index t (3 : Fin 4) * 64 + 1 * (j 3).val = (j 3).val
    omega
  · intro k
    show V c main_arg0 (((cfg0.win 0).blk t).view.emb (ix3 0 (j 2) k)) = V c main_arg0 _
    refine congrArg (V c main_arg0) (funext fun a => Fin.ext ?_)
    match a with
    | ⟨0, _⟩ =>
      show win0_0.index t (0 : Fin 3) * 1 + 1 * 0 = win0_3.index t (0 : Fin 4) * 1 + 1 * (j 0).val
      omega
    | ⟨1, _⟩ =>
      show win0_0.index t (1 : Fin 3) * 512 + 1 * (j 2).val = win0_3.index t (2 : Fin 4) * 512 + 1 * (j 2).val
      omega
    | ⟨2, _⟩ =>
      show win0_0.index t (2 : Fin 3) * 1024 + 1 * k.val = k.val
      omega
  · intro e k
    show V c main_v5 (((cfg0.win 1).blk t).view.emb (ix2 e k)) = V c main_v5 _
    refine congrArg (V c main_v5) (funext fun a => Fin.ext ?_)
    match a with
    | ⟨0, _⟩ =>
      show win0_1.index t (0 : Fin 2) * 3072 + 1 * e.val = e.val
      omega
    | ⟨1, _⟩ =>
      show win0_1.index t (1 : Fin 2) * 1024 + 1 * k.val = k.val
      omega
  · intro e
    show V c main_v11 (((cfg0.win 2).blk t).view.emb (ix2 0 e)) = V c main_v11 _
    refine congrArg (V c main_v11) (funext fun a => Fin.ext ?_)
    match a with
    | ⟨0, _⟩ =>
      show win0_2.index t (0 : Fin 2) * 1 + 1 * 0 = 0
      omega
    | ⟨1, _⟩ =>
      show win0_2.index t (1 : Fin 2) * 3072 + 1 * e.val = e.val
      omega

/-- An index of the array is in point `t`'s block iff each coordinate is in the block's range on its axis. -/
theorem mem_blk3 (t : Fin cfg0.N) (i : S4x16x2048x64.Idx) :
    i ∈ ((cfg0.win 3).blk t).view.set ↔ ∀ a : Fin 4, win0_3.index t a * S1x16x512x64.size a ≤ (i a).val
      ∧ (i a).val < win0_3.index t a * S1x16x512x64.size a + S1x16x512x64.size a := by
  show i ∈ ((View.whole main_v12_0).slice (win0_3.rect t)).set ↔ _
  rw [View.set_slice_whole, Rect.mem_set_unit]
  exact Iff.rfl

/-- Every index of the array is in some grid point's block: batch `b`, position `s` is in the block of the point
    with batch block `b` and position block `s / 512`. -/
theorem cover3 (i : S4x16x2048x64.Idx) :
    ∃ t : Fin cfg0.N, (cfg0.win 3).flush t = true ∧ i ∈ ((cfg0.win 3).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto3 ⟨(i 0).val, hi0⟩ ⟨(i 2).val / 512, by omega⟩
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  refine ⟨t, flush0_3 t, ?_⟩
  rw [mem_blk3]
  intro a
  match a with
  | ⟨0, _⟩ =>
    show win0_3.index t (0 : Fin 4) * 1 ≤ (i 0).val ∧ (i 0).val < win0_3.index t (0 : Fin 4) * 1 + 1
    omega
  | ⟨1, _⟩ =>
    show win0_3.index t (1 : Fin 4) * 16 ≤ (i 1).val ∧ (i 1).val < win0_3.index t (1 : Fin 4) * 16 + 16
    omega
  | ⟨2, _⟩ =>
    show win0_3.index t (2 : Fin 4) * 512 ≤ (i 2).val ∧ (i 2).val < win0_3.index t (2 : Fin 4) * 512 + 512
    omega
  | ⟨3, _⟩ =>
    show win0_3.index t (3 : Fin 4) * 64 ≤ (i 3).val ∧ (i 3).val < win0_3.index t (3 : Fin 4) * 64 + 64
    omega

/-- The array window 3 writes ends holding part 0 of the projection of the staged arrays. -/
theorem final_q (c : Dev nD) :
    (dat0 (F := Ideal) V c).arrAt 3 cfg0.N
      = projRows 0 (V c main_arg0) (V c main_v5) (V c main_v11) :=
  (dat0 (F := Ideal) V c).arrAt_eq_of_cover 3 (proj V 0 c) (fun t _ => flushed_q V c t) cover3

/-! ### Output window 4: part 1 -/

/-- The index maps, decided over the 16 grid points: the activations' block moves with the output's batch and
    position blocks, the weight and the bias are staged whole, and the output's block spans all heads and lanes. -/
theorem idx_facts4 : ∀ t : Fin cfg0.N,
    win0_0.index t (0 : Fin 3) = win0_4.index t (0 : Fin 4)
    ∧ win0_0.index t (1 : Fin 3) = win0_4.index t (2 : Fin 4)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_4.index t (0 : Fin 4) ≤ 3 ∧ win0_4.index t (1 : Fin 4) = 0
    ∧ win0_4.index t (2 : Fin 4) ≤ 3 ∧ win0_4.index t (3 : Fin 4) = 0 :=
  (by decide +kernel : ∀ t : Fin grid0.N, _)

/-- Every (batch, position block) pair is some grid point's. -/
theorem idx_onto4 : ∀ (q0 : Fin 4) (q2 : Fin 4), ∃ t : Fin cfg0.N, win0_4.index t = ![q0.val, 0, q2.val, 0] :=
  (by decide +kernel : ∀ (q0 : Fin 4) (q2 : Fin 4), ∃ t : Fin grid0.N, win0_4.index t = ![q0.val, 0, q2.val, 0])

/-- What grid point `t` writes back to window 4's array is its block of the whole-array projection. -/
theorem flushed_k (c : Dev nD) (t : Fin cfg0.N) :
    (dat0 (F := Ideal) V c).flushed 4 t = ((cfg0.win 4).blk t).view.read (Elt Ideal) (proj V 1 c) := by
  show (cfg0.win 4).cut (grid0.coords t) ((dat0 V c).after 4 t) = _
  rw [after0_4]
  unfold out0_4
  rw [View.canon_unit_zero zeros4]
  simp only [View.ld_unit_zero (S := S1x512x1024) zeros3, View.ld_unit_zero (S := S3072x1024) zeros2,
    View.ld_unit_zero (S := S1x3072) zeros2]
  obtain ⟨e0, e1, e2, e3, e4, e5, e6, e7, e8, e9, e10⟩ := idx_facts4 t
  funext j
  show k0_pay3 (iblk0 V c 0 t) (iblk0 V c 1 t) (iblk0 V c 2 t) j = proj V 1 c (((cfg0.win 4).blk t).view.emb j)
  have hj0 : (j 0).val < 1 := (j 0).isLt
  have hj1 : (j 1).val < 16 := (j 1).isLt
  have hj2 : (j 2).val < 512 := (j 2).isLt
  have hj3 : (j 3).val < 64 := (j 3).isLt
  refine tile_eq_projRows 1 k0_pay3 key_apply (V c main_arg0) (V c main_v5) (V c main_v11)
    (iblk0 V c 0 t) (iblk0 V c 1 t) (iblk0 V c 2 t) j (((cfg0.win 4).blk t).view.emb j) ?_ ?_ ?_ ?_ ?_
  · show win0_4.index t (1 : Fin 4) * 16 + 1 * (j 1).val = (j 1).val
    omega
  · show win0_4.index t (3 : Fin 4) * 64 + 1 * (j 3).val = (j 3).val
    omega
  · intro k
    show V c main_arg0 (((cfg0.win 0).blk t).view.emb (ix3 0 (j 2) k)) = V c main_arg0 _
    refine congrArg (V c main_arg0) (funext fun a => Fin.ext ?_)
    match a with
    | ⟨0, _⟩ =>
      show win0_0.index t (0 : Fin 3) * 1 + 1 * 0 = win0_4.index t (0 : Fin 4) * 1 + 1 * (j 0).val
      omega
    | ⟨1, _⟩ =>
      show win0_0.index t (1 : Fin 3) * 512 + 1 * (j 2).val = win0_4.index t (2 : Fin 4) * 512 + 1 * (j 2).val
      omega
    | ⟨2, _⟩ =>
      show win0_0.index t (2 : Fin 3) * 1024 + 1 * k.val = k.val
      omega
  · intro e k
    show V c main_v5 (((cfg0.win 1).blk t).view.emb (ix2 e k)) = V c main_v5 _
    refine congrArg (V c main_v5) (funext fun a => Fin.ext ?_)
    match a with
    | ⟨0, _⟩ =>
      show win0_1.index t (0 : Fin 2) * 3072 + 1 * e.val = e.val
      omega
    | ⟨1, _⟩ =>
      show win0_1.index t (1 : Fin 2) * 1024 + 1 * k.val = k.val
      omega
  · intro e
    show V c main_v11 (((cfg0.win 2).blk t).view.emb (ix2 0 e)) = V c main_v11 _
    refine congrArg (V c main_v11) (funext fun a => Fin.ext ?_)
    match a with
    | ⟨0, _⟩ =>
      show win0_2.index t (0 : Fin 2) * 1 + 1 * 0 = 0
      omega
    | ⟨1, _⟩ =>
      show win0_2.index t (1 : Fin 2) * 3072 + 1 * e.val = e.val
      omega

/-- An index of the array is in point `t`'s block iff each coordinate is in the block's range on its axis. -/
theorem mem_blk4 (t : Fin cfg0.N) (i : S4x16x2048x64.Idx) :
    i ∈ ((cfg0.win 4).blk t).view.set ↔ ∀ a : Fin 4, win0_4.index t a * S1x16x512x64.size a ≤ (i a).val
      ∧ (i a).val < win0_4.index t a * S1x16x512x64.size a + S1x16x512x64.size a := by
  show i ∈ ((View.whole main_v12_1).slice (win0_4.rect t)).set ↔ _
  rw [View.set_slice_whole, Rect.mem_set_unit]
  exact Iff.rfl

/-- Every index of the array is in some grid point's block: batch `b`, position `s` is in the block of the point
    with batch block `b` and position block `s / 512`. -/
theorem cover4 (i : S4x16x2048x64.Idx) :
    ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto4 ⟨(i 0).val, hi0⟩ ⟨(i 2).val / 512, by omega⟩
  have q0 : win0_4.index t (0 : Fin 4) = (i 0).val := congrFun ht 0
  have q1 : win0_4.index t (1 : Fin 4) = 0 := congrFun ht 1
  have q2 : win0_4.index t (2 : Fin 4) = (i 2).val / 512 := congrFun ht 2
  have q3 : win0_4.index t (3 : Fin 4) = 0 := congrFun ht 3
  refine ⟨t, flush0_4 t, ?_⟩
  rw [mem_blk4]
  intro a
  match a with
  | ⟨0, _⟩ =>
    show win0_4.index t (0 : Fin 4) * 1 ≤ (i 0).val ∧ (i 0).val < win0_4.index t (0 : Fin 4) * 1 + 1
    omega
  | ⟨1, _⟩ =>
    show win0_4.index t (1 : Fin 4) * 16 ≤ (i 1).val ∧ (i 1).val < win0_4.index t (1 : Fin 4) * 16 + 16
    omega
  | ⟨2, _⟩ =>
    show win0_4.index t (2 : Fin 4) * 512 ≤ (i 2).val ∧ (i 2).val < win0_4.index t (2 : Fin 4) * 512 + 512
    omega
  | ⟨3, _⟩ =>
    show win0_4.index t (3 : Fin 4) * 64 ≤ (i 3).val ∧ (i 3).val < win0_4.index t (3 : Fin 4) * 64 + 64
    omega

/-- The array window 4 writes ends holding part 1 of the projection of the staged arrays. -/
theorem final_k (c : Dev nD) :
    (dat0 (F := Ideal) V c).arrAt 4 cfg0.N
      = projRows 1 (V c main_arg0) (V c main_v5) (V c main_v11) :=
  (dat0 (F := Ideal) V c).arrAt_eq_of_cover 4 (proj V 1 c) (fun t _ => flushed_k V c t) cover4

/-! ### Output window 5: part 2 -/

/-- The index maps, decided over the 16 grid points: the activations' block moves with the output's batch and
    position blocks, the weight and the bias are staged whole, and the output's block spans all heads and lanes. -/
theorem idx_facts5 : ∀ t : Fin cfg0.N,
    win0_0.index t (0 : Fin 3) = win0_5.index t (0 : Fin 4)
    ∧ win0_0.index t (1 : Fin 3) = win0_5.index t (2 : Fin 4)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_5.index t (0 : Fin 4) ≤ 3 ∧ win0_5.index t (1 : Fin 4) = 0
    ∧ win0_5.index t (2 : Fin 4) ≤ 3 ∧ win0_5.index t (3 : Fin 4) = 0 :=
  (by decide +kernel : ∀ t : Fin grid0.N, _)

/-- Every (batch, position block) pair is some grid point's. -/
theorem idx_onto5 : ∀ (q0 : Fin 4) (q2 : Fin 4), ∃ t : Fin cfg0.N, win0_5.index t = ![q0.val, 0, q2.val, 0] :=
  (by decide +kernel : ∀ (q0 : Fin 4) (q2 : Fin 4), ∃ t : Fin grid0.N, win0_5.index t = ![q0.val, 0, q2.val, 0])

/-- What grid point `t` writes back to window 5's array is its block of the whole-array projection. -/
theorem flushed_v (c : Dev nD) (t : Fin cfg0.N) :
    (dat0 (F := Ideal) V c).flushed 5 t = ((cfg0.win 5).blk t).view.read (Elt Ideal) (proj V 2 c) := by
  show (cfg0.win 5).cut (grid0.coords t) ((dat0 V c).after 5 t) = _
  rw [after0_5]
  unfold out0_5
  rw [View.canon_unit_zero zeros4]
  simp only [View.ld_unit_zero (S := S1x512x1024) zeros3, View.ld_unit_zero (S := S3072x1024) zeros2,
    View.ld_unit_zero (S := S1x3072) zeros2]
  obtain ⟨e0, e1, e2, e3, e4, e5, e6, e7, e8, e9, e10⟩ := idx_facts5 t
  funext j
  show k0_pay4 (iblk0 V c 0 t) (iblk0 V c 1 t) (iblk0 V c 2 t) j = proj V 2 c (((cfg0.win 5).blk t).view.emb j)
  have hj0 : (j 0).val < 1 := (j 0).isLt
  have hj1 : (j 1).val < 16 := (j 1).isLt
  have hj2 : (j 2).val < 512 := (j 2).isLt
  have hj3 : (j 3).val < 64 := (j 3).isLt
  refine tile_eq_projRows 2 k0_pay4 value_apply (V c main_arg0) (V c main_v5) (V c main_v11)
    (iblk0 V c 0 t) (iblk0 V c 1 t) (iblk0 V c 2 t) j (((cfg0.win 5).blk t).view.emb j) ?_ ?_ ?_ ?_ ?_
  · show win0_5.index t (1 : Fin 4) * 16 + 1 * (j 1).val = (j 1).val
    omega
  · show win0_5.index t (3 : Fin 4) * 64 + 1 * (j 3).val = (j 3).val
    omega
  · intro k
    show V c main_arg0 (((cfg0.win 0).blk t).view.emb (ix3 0 (j 2) k)) = V c main_arg0 _
    refine congrArg (V c main_arg0) (funext fun a => Fin.ext ?_)
    match a with
    | ⟨0, _⟩ =>
      show win0_0.index t (0 : Fin 3) * 1 + 1 * 0 = win0_5.index t (0 : Fin 4) * 1 + 1 * (j 0).val
      omega
    | ⟨1, _⟩ =>
      show win0_0.index t (1 : Fin 3) * 512 + 1 * (j 2).val = win0_5.index t (2 : Fin 4) * 512 + 1 * (j 2).val
      omega
    | ⟨2, _⟩ =>
      show win0_0.index t (2 : Fin 3) * 1024 + 1 * k.val = k.val
      omega
  · intro e k
    show V c main_v5 (((cfg0.win 1).blk t).view.emb (ix2 e k)) = V c main_v5 _
    refine congrArg (V c main_v5) (funext fun a => Fin.ext ?_)
    match a with
    | ⟨0, _⟩ =>
      show win0_1.index t (0 : Fin 2) * 3072 + 1 * e.val = e.val
      omega
    | ⟨1, _⟩ =>
      show win0_1.index t (1 : Fin 2) * 1024 + 1 * k.val = k.val
      omega
  · intro e
    show V c main_v11 (((cfg0.win 2).blk t).view.emb (ix2 0 e)) = V c main_v11 _
    refine congrArg (V c main_v11) (funext fun a => Fin.ext ?_)
    match a with
    | ⟨0, _⟩ =>
      show win0_2.index t (0 : Fin 2) * 1 + 1 * 0 = 0
      omega
    | ⟨1, _⟩ =>
      show win0_2.index t (1 : Fin 2) * 3072 + 1 * e.val = e.val
      omega

/-- An index of the array is in point `t`'s block iff each coordinate is in the block's range on its axis. -/
theorem mem_blk5 (t : Fin cfg0.N) (i : S4x16x2048x64.Idx) :
    i ∈ ((cfg0.win 5).blk t).view.set ↔ ∀ a : Fin 4, win0_5.index t a * S1x16x512x64.size a ≤ (i a).val
      ∧ (i a).val < win0_5.index t a * S1x16x512x64.size a + S1x16x512x64.size a := by
  show i ∈ ((View.whole main_v12_2).slice (win0_5.rect t)).set ↔ _
  rw [View.set_slice_whole, Rect.mem_set_unit]
  exact Iff.rfl

/-- Every index of the array is in some grid point's block: batch `b`, position `s` is in the block of the point
    with batch block `b` and position block `s / 512`. -/
theorem cover5 (i : S4x16x2048x64.Idx) :
    ∃ t : Fin cfg0.N, (cfg0.win 5).flush t = true ∧ i ∈ ((cfg0.win 5).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto5 ⟨(i 0).val, hi0⟩ ⟨(i 2).val / 512, by omega⟩
  have q0 : win0_5.index t (0 : Fin 4) = (i 0).val := congrFun ht 0
  have q1 : win0_5.index t (1 : Fin 4) = 0 := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ =>
    show win0_5.index t (0 : Fin 4) * 1 ≤ (i 0).val ∧ (i 0).val < win0_5.index t (0 : Fin 4) * 1 + 1
    omega
  | ⟨1, _⟩ =>
    show win0_5.index t (1 : Fin 4) * 16 ≤ (i 1).val ∧ (i 1).val < win0_5.index t (1 : Fin 4) * 16 + 16
    omega
  | ⟨2, _⟩ =>
    show win0_5.index t (2 : Fin 4) * 512 ≤ (i 2).val ∧ (i 2).val < win0_5.index t (2 : Fin 4) * 512 + 512
    omega
  | ⟨3, _⟩ =>
    show win0_5.index t (3 : Fin 4) * 64 ≤ (i 3).val ∧ (i 3).val < win0_5.index t (3 : Fin 4) * 64 + 64
    omega

/-- The array window 5 writes ends holding part 2 of the projection of the staged arrays. -/
theorem final_v (c : Dev nD) :
    (dat0 (F := Ideal) V c).arrAt 5 cfg0.N
      = projRows 2 (V c main_arg0) (V c main_v5) (V c main_v11) :=
  (dat0 (F := Ideal) V c).arrAt_eq_of_cover 5 (proj V 2 c) (fun t _ => flushed_v V c t) cover5

end Cert.KernelIdeal.QkvValue

end
-- ==== Proof.AttentionBlock.lean ====
/-
  The attention of ONE tile: four heads' query rows (512 positions) against all 2048 key and value positions of the
  same four heads, as a function of the three blocks. Column `e` of the tile's 256-wide result belongs to head
  `e / 64` of the four, lane `e % 64`. The formulas are those of the whole-array specification, read on blocks.
-/
import proofs.«128969_j32315333935918_2_alg».proof.Proof.AttentionSpec

noncomputable section

namespace Cert.Attention

open Idealize.ShloMosaic Idealize.ShloMosaic.ValueIdx
open scoped BigOperators

/-- A query block [1, 4, 512, 64] and a key or value block [1, 4, 2048, 64]. -/
abbrev SQBlk : Shape := ⟨4, ![1, 4, 512, 64]⟩
abbrev SKVBlk : Shape := ⟨4, ![1, 4, 2048, 64]⟩

/-- The head (of the block's four) and the lane of column `e` of the block's result. -/
def blkHead (e : Fin 256) : Fin 4 := ⟨e.val / 64, by omega⟩
def blkLane (e : Fin 256) : Fin 64 := ⟨e.val % 64, by omega⟩

/-- The score of the block's query row `r` of head `i` against key position `j`. -/
def blkScore (q : SQBlk.Idx → EReal) (k : SKVBlk.Idx → EReal) (i : Fin 4) (r : Fin 512) (j : Fin 2048) : EReal :=
  (∑ l : Fin 64, q (ix4 0 i r l) * k (ix4 0 i j l)) * Ideal.ofBits .f32 0x3E000000#32

/-- The score row's maximum, folded from minus infinity. -/
def blkMax (q : SQBlk.Idx → EReal) (k : SKVBlk.Idx → EReal) (i : Fin 4) (r : Fin 512) : EReal :=
  (Finset.univ : Finset (Fin 2048)).fold max (Ideal.ofBits .f32 0xFF800000#32) (fun j => blkScore q k i r j)

/-- The shifted score, exponentiated. -/
def blkExp (q : SQBlk.Idx → EReal) (k : SKVBlk.Idx → EReal) (i : Fin 4) (r : Fin 512) (j : Fin 2048) : EReal :=
  Ideal.exp (blkScore q k i r j - blkMax q k i r)

/-- The row's sum of exponentials. -/
def blkDenom (q : SQBlk.Idx → EReal) (k : SKVBlk.Idx → EReal) (i : Fin 4) (r : Fin 512) : EReal :=
  ∑ j : Fin 2048, blkExp q k i r j

/-- Entry `(r, e)` of the tile's result. -/
def blkCtx (q : SQBlk.Idx → EReal) (k v : SKVBlk.Idx → EReal) (r : Fin 512) (e : Fin 256) : EReal :=
  ∑ j : Fin 2048, Ideal.div (blkExp q k (blkHead e) r j) (blkDenom q k (blkHead e) r) * v (ix4 0 (blkHead e) j (blkLane e))

end Cert.Attention

end
-- ==== Proof.AttnPayload.lean ====
/-
  The attention stage's body: what one grid point leaves in its output block, as the tile formula of its three input
  blocks.

  A grid point holds a [1, 4, 512, 64] query block and [1, 4, 2048, 64] key and value blocks: four heads, a tile of 512
  query positions, all 2048 key positions. For head i of the four it forms the scores q . k over the 64 lanes times one
  eighth, shifts each row by its maximum, exponentiates, divides by the row sum and combines the value rows with these
  weights. The four [512, 64] results are laid side by side, so column e of the [1, 512, 256] block is lane e % 64 of
  head e / 64.

  Order of the file: the two contractions, the two lane reductions and the column broadcast read at an index; one
  head's chain, stage by stage, read at an index; a head's slices of the blocks; the stored block as the four heads
  side by side; the stored block at (r, e).
-/
import proofs.«128969_j32315333935918_2_alg».proof.KernelIdeal
import proofs.«128969_j32315333935918_2_alg».proof.Proof.Gen.KernelIdeal.Frame
import proofs.«128969_j32315333935918_2_alg».proof.Proof.AttentionBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttnPayload

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

/-! ## The two contractions read at an index -/

/-- Scores: rows of queries against rows of keys, contracted over the 64 lanes. -/
abbrev dQK : DotDims S512x64 S2048x64 S512x2048 := dot_S512x64_S2048x64_S512x2048_1_1_0_0_n_n
/-- Context: rows of weights against columns of values, contracted over the 2048 key positions. -/
abbrev dPV : DotDims S512x2048 S2048x64 S512x64 := dot_S512x2048_S2048x64_S512x64_1_0_0_1_n_n

theorem lhsQK_0 (i : S512x2048.Idx) (c : dQK.contr.Idx) : (dQK.lhsIdx i c 0).val = (i 0).val := by
  unfold DotDims.lhsIdx
  rw [dif_neg (show ¬(0 : Fin S512x64.rank) ∈ dQK.lhsBatch by decide), dif_pos (show (0 : Fin S512x64.rank) ∈ dQK.lhsNonContracting by decide)]
  rfl
theorem lhsQK_1 (i : S512x2048.Idx) (c : dQK.contr.Idx) : (dQK.lhsIdx i c 1).val = (c ⟨0, by decide⟩).val :=
  dQK.lhsIdx_val_of_single rfl i c
theorem rhsQK_0 (i : S512x2048.Idx) (c : dQK.contr.Idx) : (dQK.rhsIdx i c 0).val = (i 1).val := by
  unfold DotDims.rhsIdx
  rw [dif_neg (show ¬(0 : Fin S2048x64.rank) ∈ dQK.rhsBatch by decide), dif_pos (show (0 : Fin S2048x64.rank) ∈ dQK.rhsNonContracting by decide)]
  rfl
theorem rhsQK_1 (i : S512x2048.Idx) (c : dQK.contr.Idx) : (dQK.rhsIdx i c 1).val = (c ⟨0, by decide⟩).val :=
  dQK.rhsIdx_val_of_single rfl i c

/-- The score contraction at (r, j): the sum over the lanes of query row r times key row j. -/
theorem qk_apply (q : FVec Ideal S512x64 .bf16) (k : FVec Ideal S2048x64 .bf16) (r : Fin 512) (j : Fin 2048) :
    matmul dQK none q k (constant (F := Ideal) S512x2048 .f32 0x00000000#32) (ix2 r j)
      = ∑ l : Fin 64, q (ix2 r l) * k (ix2 j l) := by
  simp only [matmul]
  rw [Ideal.matmul_constant_zero_apply, ← Equiv.sum_comp (contrEquiv1 dQK 64 rfl rfl).symm]
  refine Finset.sum_congr rfl fun l _ => ?_
  have hl := contrEquiv1_symm_val dQK 64 rfl rfl l
  have el : dQK.lhsIdx (ix2 r j) ((contrEquiv1 dQK 64 rfl rfl).symm l) = ix2 r l := funext fun a => Fin.ext (by
    match a with
    | ⟨0, _⟩ => exact lhsQK_0 _ _
    | ⟨1, _⟩ => exact (lhsQK_1 _ _).trans hl)
  have er : dQK.rhsIdx (ix2 r j) ((contrEquiv1 dQK 64 rfl rfl).symm l) = ix2 j l := funext fun a => Fin.ext (by
    match a with
    | ⟨0, _⟩ => exact rhsQK_0 _ _
    | ⟨1, _⟩ => exact (rhsQK_1 _ _).trans hl)
  rw [el, er]

theorem lhsPV_0 (i : S512x64.Idx) (c : dPV.contr.Idx) : (dPV.lhsIdx i c 0).val = (i 0).val := by
  unfold DotDims.lhsIdx
  rw [dif_neg (show ¬(0 : Fin S512x2048.rank) ∈ dPV.lhsBatch by decide), dif_pos (show (0 : Fin S512x2048.rank) ∈ dPV.lhsNonContracting by decide)]
  rfl
theorem lhsPV_1 (i : S512x64.Idx) (c : dPV.contr.Idx) : (dPV.lhsIdx i c 1).val = (c ⟨0, by decide⟩).val :=
  dPV.lhsIdx_val_of_single rfl i c
theorem rhsPV_0 (i : S512x64.Idx) (c : dPV.contr.Idx) : (dPV.rhsIdx i c 0).val = (c ⟨0, by decide⟩).val :=
  dPV.rhsIdx_val_of_single rfl i c
theorem rhsPV_1 (i : S512x64.Idx) (c : dPV.contr.Idx) : (dPV.rhsIdx i c 1).val = (i 1).val := by
  unfold DotDims.rhsIdx
  rw [dif_neg (show ¬(1 : Fin S2048x64.rank) ∈ dPV.rhsBatch by decide), dif_pos (show (1 : Fin S2048x64.rank) ∈ dPV.rhsNonContracting by decide)]
  rfl

/-- The context contraction at (r, d): the sum over the key positions of weight (r, j) times value (j, d). -/
theorem pv_apply (p : FVec Ideal S512x2048 .bf16) (v : FVec Ideal S2048x64 .bf16) (r : Fin 512) (d : Fin 64) :
    matmul dPV none p v (constant (F := Ideal) S512x64 .f32 0x00000000#32) (ix2 r d)
      = ∑ j : Fin 2048, p (ix2 r j) * v (ix2 j d) := by
  simp only [matmul]
  rw [Ideal.matmul_constant_zero_apply, ← Equiv.sum_comp (contrEquiv1 dPV 2048 rfl rfl).symm]
  refine Finset.sum_congr rfl fun j _ => ?_
  have hj := contrEquiv1_symm_val dPV 2048 rfl rfl j
  have el : dPV.lhsIdx (ix2 r d) ((contrEquiv1 dPV 2048 rfl rfl).symm j) = ix2 r j := funext fun a => Fin.ext (by
    match a with
    | ⟨0, _⟩ => exact lhsPV_0 _ _
    | ⟨1, _⟩ => exact (lhsPV_1 _ _).trans hj)
  have er : dPV.rhsIdx (ix2 r d) ((contrEquiv1 dPV 2048 rfl rfl).symm j) = ix2 j d := funext fun a => Fin.ext (by
    match a with
    | ⟨0, _⟩ => exact (rhsPV_0 _ _).trans hj
    | ⟨1, _⟩ => exact rhsPV_1 _ _)
  rw [el, er]

/-! ## The lane reductions and the column broadcast read at an index -/

/-- A row's maximum: the fold of max over the row's 2048 entries from minus infinity. -/
theorem rowmax_apply (s : FVec Ideal S512x2048 .f32) (r : Fin 512) :
    multiReduction (F := Ideal) .maximumf [1] S512 s 0xFF800000#32 reduces_S512x2048_S512 (.inl rfl) rfl (ix1 r)
      = (Finset.univ : Finset (Fin 2048)).fold max (Ideal.ofBits .f32 0xFF800000#32) (fun j => s (ix2 r j)) := by
  refine (Ideal.multiReduction_maximumf_single s 0xFF800000#32 reduces_S512x2048_S512 (.inl rfl) rfl (ix1 r)).trans ?_
  have e : (s ∘ reduces_S512x2048_S512.lift (ix1 r)) = fun j : Fin 2048 => s (ix2 r j) :=
    funext fun j => congrArg s (funext fun a => Fin.ext (by
      match a with
      | ⟨0, _⟩ => rfl
      | ⟨1, _⟩ => rfl))
  rw [e]
  rfl

/-- A row's sum: the sum of the row's 2048 entries. -/
theorem rowsum_apply (x : FVec Ideal S512x2048 .f32) (r : Fin 512) :
    multiReduction (F := Ideal) .add [1] S512 x 0x00000000#32 reduces_S512x2048_S512 (.inl rfl) rfl (ix1 r)
      = ∑ j : Fin 2048, x (ix2 r j) := by
  refine (Ideal.multiReduction_add_single x 0x00000000#32 reduces_S512x2048_S512 (.inl rfl) rfl (ix1 r)).trans ?_
  refine Finset.sum_congr rfl fun j _ => congrArg x (funext fun a => Fin.ext (by
    match a with
    | ⟨0, _⟩ => rfl
    | ⟨1, _⟩ => rfl))

/-- A per-row value made a column and spread over the row: entry (r, j) is the value of row r. -/
theorem column_apply {α : Type} (m : S512.Idx → α) (r : Fin 512) (j : Fin 2048) :
    broadcastTo S512x2048 (shapeCast S512x1 m shapeCasts_S512_S512x1) broadcasts_S512x1_S512x2048 (ix2 r j) = m (ix1 r) := by
  refine (broadcastTo_apply _ broadcasts_S512x1_S512x2048 (ix2 r j) (ix2 r (0 : Fin 1)) fun a => ?_).trans ?_
  · match a with
    | ⟨0, _⟩ => show r.val = if (512 : Nat) = 1 then 0 else r.val; rw [if_neg (by decide)]
    | ⟨1, _⟩ => show (0 : Nat) = if (1 : Nat) = 1 then 0 else j.val; rw [if_pos rfl]
  · exact shapeCast_apply m shapeCasts_S512_S512x1 (ix2 r (0 : Fin 1)) (ix1 r) (by
      rw [Shape.rowMajor_val_one, Shape.rowMajor_val_two]
      show r.val = r.val * 1 + 0
      omega)

/-! ## One head's chain, stage by stage -/

/-- The scaled scores of a query tile against the keys. -/
def scoreV (q : FVec Ideal S512x64 .bf16) (k : FVec Ideal S2048x64 .bf16) : FVec Ideal S512x2048 .f32 :=
  mulf (matmul dQK none q k (constant S512x2048 .f32 0x00000000#32)) (broadcast S512x2048 (Scalar.ofBits .f32 0x3E000000#32))
/-- The rows' maxima. -/
def maxV (s : FVec Ideal S512x2048 .f32) : FVec Ideal S512 .f32 :=
  multiReduction .maximumf [1] S512 s 0xFF800000#32 reduces_S512x2048_S512 (.inl rfl) rfl
/-- The scores shifted by a per-row value, exponentiated. -/
def expV (s : FVec Ideal S512x2048 .f32) (m : FVec Ideal S512 .f32) : FVec Ideal S512x2048 .f32 :=
  exp (subf s (broadcastTo S512x2048 (shapeCast S512x1 m shapeCasts_S512_S512x1) broadcasts_S512x1_S512x2048))
/-- The rows' sums, spread over the rows. -/
def sumV (x : FVec Ideal S512x2048 .f32) : FVec Ideal S512x2048 .f32 :=
  broadcastTo S512x2048 (shapeCast S512x1 (multiReduction .add [1] S512 x 0x00000000#32 reduces_S512x2048_S512 (.inl rfl) rfl)
    shapeCasts_S512_S512x1) broadcasts_S512x1_S512x2048
/-- The quotient's rows against the values. -/
def outV (x b : FVec Ideal S512x2048 .f32) (v : FVec Ideal S2048x64 .bf16) : FVec Ideal S512x64 .bf16 :=
  truncf .bf16 (matmul dPV none (truncf .bf16 (divf x b) bitsLt_bf16_f32) v (constant S512x64 .f32 0x00000000#32)) bitsLt_bf16_f32
/-- One head, whole. -/
def headV (q : FVec Ideal S512x64 .bf16) (k v : FVec Ideal S2048x64 .bf16) : FVec Ideal S512x64 .bf16 :=
  outV (expV (scoreV q k) (maxV (scoreV q k))) (sumV (expV (scoreV q k) (maxV (scoreV q k)))) v

/-- The same quantities as numbers, in the shapes the specification uses. -/
def sc (q : S512x64.Idx → EReal) (k : S2048x64.Idx → EReal) (r : Fin 512) (j : Fin 2048) : EReal :=
  (∑ l : Fin 64, q (ix2 r l) * k (ix2 j l)) * Ideal.ofBits .f32 0x3E000000#32
def mx (q : S512x64.Idx → EReal) (k : S2048x64.Idx → EReal) (r : Fin 512) : EReal :=
  (Finset.univ : Finset (Fin 2048)).fold max (Ideal.ofBits .f32 0xFF800000#32) (fun j => sc q k r j)
def ex (q : S512x64.Idx → EReal) (k : S2048x64.Idx → EReal) (r : Fin 512) (j : Fin 2048) : EReal :=
  Ideal.exp (sc q k r j - mx q k r)
def dn (q : S512x64.Idx → EReal) (k : S2048x64.Idx → EReal) (r : Fin 512) : EReal :=
  ∑ j : Fin 2048, ex q k r j
def hd (q : S512x64.Idx → EReal) (k v : S2048x64.Idx → EReal) (r : Fin 512) (d : Fin 64) : EReal :=
  ∑ j : Fin 2048, Ideal.div (ex q k r j) (dn q k r) * v (ix2 j d)

theorem scoreV_apply (q : FVec Ideal S512x64 .bf16) (k : FVec Ideal S2048x64 .bf16) (r : Fin 512) (j : Fin 2048) :
    scoreV q k (ix2 r j) = sc q k r j := by
  unfold scoreV sc
  show matmul dQK none q k (constant (F := Ideal) S512x2048 .f32 0x00000000#32) (ix2 r j) * Ideal.ofBits .f32 0x3E000000#32 = _
  rw [qk_apply]

theorem maxV_apply (s : FVec Ideal S512x2048 .f32) (r : Fin 512) :
    maxV s (ix1 r) = (Finset.univ : Finset (Fin 2048)).fold max (Ideal.ofBits .f32 0xFF800000#32) (fun j => s (ix2 r j)) :=
  rowmax_apply s r

theorem expV_apply (s : FVec Ideal S512x2048 .f32) (m : FVec Ideal S512 .f32) (r : Fin 512) (j : Fin 2048) :
    expV s m (ix2 r j) = Ideal.exp (s (ix2 r j) - m (ix1 r)) := by
  unfold expV
  show Ideal.exp (s (ix2 r j) - broadcastTo S512x2048 (shapeCast S512x1 m shapeCasts_S512_S512x1) broadcasts_S512x1_S512x2048 (ix2 r j)) = _
  rw [column_apply]

theorem sumV_apply (x : FVec Ideal S512x2048 .f32) (r : Fin 512) (j : Fin 2048) :
    sumV x (ix2 r j) = ∑ j' : Fin 2048, x (ix2 r j') :=
  (column_apply _ r j).trans (rowsum_apply x r)

theorem outV_apply (x b : FVec Ideal S512x2048 .f32) (v : FVec Ideal S2048x64 .bf16) (r : Fin 512) (d : Fin 64) :
    outV x b v (ix2 r d) = ∑ j : Fin 2048, Ideal.div (x (ix2 r j)) (b (ix2 r j)) * v (ix2 j d) :=
  pv_apply (truncf .bf16 (divf x b) bitsLt_bf16_f32) v r d

/-- ONE HEAD AT (r, d): the weights of row r — exponentials of the shifted scores over their sum — against lane d of the values. -/
theorem headV_apply (q : FVec Ideal S512x64 .bf16) (k v : FVec Ideal S2048x64 .bf16) (r : Fin 512) (d : Fin 64) :
    headV q k v (ix2 r d) = hd q k v r d := by
  have he : ∀ j : Fin 2048, expV (scoreV q k) (maxV (scoreV q k)) (ix2 r j) = ex q k r j := fun j => by
    rw [expV_apply, scoreV_apply, maxV_apply]
    unfold ex mx
    simp only [scoreV_apply]
  unfold headV
  rw [outV_apply]
  unfold hd dn
  refine Finset.sum_congr rfl fun j _ => ?_
  rw [sumV_apply, he]
  simp only [he]

/-! ## The block a grid point stores -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Head o's [512, 64] slice of a [4, 512, 64] query block. -/
def selQ (o : Nat) (hs : S4x512x64.Slices ![o, 0, 0] S1x512x64) (x : FVec Ideal S4x512x64 .bf16) : FVec Ideal S512x64 .bf16 :=
  shapeCast S512x64 (extractStridedSlice S1x512x64 ![o, 0, 0] x hs) shapeCasts_S1x512x64_S512x64
/-- Head o's [2048, 64] slice of a [4, 2048, 64] key or value block. -/
def selK (o : Nat) (hs : S4x2048x64.Slices ![o, 0, 0] S1x2048x64) (x : FVec Ideal S4x2048x64 .bf16) : FVec Ideal S2048x64 .bf16 :=
  shapeCast S2048x64 (extractStridedSlice S1x2048x64 ![o, 0, 0] x hs) shapeCasts_S1x2048x64_S2048x64

theorem selQ_apply (o : Nat) (ho : o < 4) (hs : S4x512x64.Slices ![o, 0, 0] S1x512x64) (x : Vec Ideal S1x4x512x64 .bf16)
    (r : Fin 512) (l : Fin 64) :
    selQ o hs (k1_pay2 (F := Ideal) x) (ix2 r l) = x (ix4 (0 : Fin 1) (⟨o, ho⟩ : Fin 4) r l) := by
  unfold selQ
  refine (shapeCast_1ab_ab_apply _ shapeCasts_S1x512x64_S512x64 r l).trans ?_
  refine (extractStridedSlice_apply _ _ hs (ix3 (0 : Fin 1) r l) (ix3 (⟨o, ho⟩ : Fin 4) r l) fun a => ?_).trans ?_
  · match a with
    | ⟨0, _⟩ => exact (Nat.add_zero o).symm
    | ⟨1, _⟩ => exact (Nat.zero_add _).symm
    | ⟨2, _⟩ => exact (Nat.zero_add _).symm
  · unfold k1_pay2
    exact shapeCast_1abc_abc_apply x shapeCasts_S1x4x512x64_S4x512x64 (⟨o, ho⟩ : Fin 4) r l

theorem selK_apply (o : Nat) (ho : o < 4) (hs : S4x2048x64.Slices ![o, 0, 0] S1x2048x64) (x : Vec Ideal S1x4x2048x64 .bf16)
    (j : Fin 2048) (l : Fin 64) :
    selK o hs (shapeCast S4x2048x64 x shapeCasts_S1x4x2048x64_S4x2048x64) (ix2 j l) = x (ix4 (0 : Fin 1) (⟨o, ho⟩ : Fin 4) j l) := by
  unfold selK
  refine (shapeCast_1ab_ab_apply _ shapeCasts_S1x2048x64_S2048x64 j l).trans ?_
  refine (extractStridedSlice_apply _ _ hs (ix3 (0 : Fin 1) j l) (ix3 (⟨o, ho⟩ : Fin 4) j l) fun a => ?_).trans ?_
  · match a with
    | ⟨0, _⟩ => exact (Nat.add_zero o).symm
    | ⟨1, _⟩ => exact (Nat.zero_add _).symm
    | ⟨2, _⟩ => exact (Nat.zero_add _).symm
  · exact shapeCast_1abc_abc_apply x shapeCasts_S1x4x2048x64_S4x2048x64 (⟨o, ho⟩ : Fin 4) j l

/-- What a point leaves in the output's buffer: the four heads' results side by side, under a leading unit axis. -/
theorem out_eq (x0 : Vec Ideal S1x4x512x64 .bf16) (x1 x2 : Vec Ideal S1x4x2048x64 .bf16) :
    out1_3 (F := Ideal) x0 x1 x2 = shapeCast S1x512x256 (concatenate S512x256 1
      [⟨S512x64, headV (selQ 0 slices_S4x512x64_o0_0_0_S1x512x64 (k1_pay2 x0)) (selK 0 slices_S4x2048x64_o0_0_0_S1x2048x64 (k1_pay3 x1)) (selK 0 slices_S4x2048x64_o0_0_0_S1x2048x64 (k1_pay4 x2))⟩,
       ⟨S512x64, headV (selQ 1 slices_S4x512x64_o1_0_0_S1x512x64 (k1_pay2 x0)) (selK 1 slices_S4x2048x64_o1_0_0_S1x2048x64 (k1_pay3 x1)) (selK 1 slices_S4x2048x64_o1_0_0_S1x2048x64 (k1_pay4 x2))⟩,
       ⟨S512x64, headV (selQ 2 slices_S4x512x64_o2_0_0_S1x512x64 (k1_pay2 x0)) (selK 2 slices_S4x2048x64_o2_0_0_S1x2048x64 (k1_pay3 x1)) (selK 2 slices_S4x2048x64_o2_0_0_S1x2048x64 (k1_pay4 x2))⟩,
       ⟨S512x64, headV (selQ 3 slices_S4x512x64_o3_0_0_S1x512x64 (k1_pay2 x0)) (selK 3 slices_S4x2048x64_o3_0_0_S1x2048x64 (k1_pay3 x1)) (selK 3 slices_S4x2048x64_o3_0_0_S1x2048x64 (k1_pay4 x2))⟩]
      concatenates_S512x64_S512x64_S512x64_S512x64_S512x256_d1) shapeCasts_S512x256_S1x512x256 := by
  unfold out1_3
  rw [View.canon_unit_zero hz3]
  simp only [View.ld_unit_zero (S := S1x4x512x64) hz4, View.ld_unit_zero (S := S1x4x2048x64) hz4]
  rfl

/-- One head's numbers are the tile formula's, once its three operands are the head's rows of the blocks. -/
theorem hd_eq_blkCtx (q : S512x64.Idx → EReal) (k v : S2048x64.Idx → EReal)
    (x0 : Cert.Attention.SQBlk.Idx → EReal) (x1 x2 : Cert.Attention.SKVBlk.Idx → EReal) (e : Fin 256)
    (hq : ∀ (r : Fin 512) (l : Fin 64), q (ix2 r l) = x0 (ix4 (0 : Fin 1) (Cert.Attention.blkHead e) r l))
    (hk : ∀ (j : Fin 2048) (l : Fin 64), k (ix2 j l) = x1 (ix4 (0 : Fin 1) (Cert.Attention.blkHead e) j l))
    (hv : ∀ (j : Fin 2048) (l : Fin 64), v (ix2 j l) = x2 (ix4 (0 : Fin 1) (Cert.Attention.blkHead e) j l))
    (r : Fin 512) :
    hd q k v r (Cert.Attention.blkLane e) = Cert.Attention.blkCtx x0 x1 x2 r e := by
  unfold hd dn ex mx sc Cert.Attention.blkCtx Cert.Attention.blkDenom Cert.Attention.blkExp Cert.Attention.blkMax
    Cert.Attention.blkScore
  simp only [hq, hk, hv]

/-- Four [512, 64] pieces laid side by side: column i * 64 + d of the [512, 256] result is column d of piece i. -/
theorem side_by_side_0 {α : Type} (p0 p1 p2 p3 : S512x64.Idx → α) (r : Fin 512) (e : Fin 256) (d : Fin 64)
    (he : e.val = 0 * 64 + d.val) :
    concatenate S512x256 1 [⟨S512x64, p0⟩, ⟨S512x64, p1⟩, ⟨S512x64, p2⟩, ⟨S512x64, p3⟩] concatenates_S512x64_S512x64_S512x64_S512x64_S512x256_d1 (ix2 r e) = p0 (ix2 r d) :=
  concatenate_apply_piece (1 : Fin S512x256.rank) [⟨S512x64, p0⟩, ⟨S512x64, p1⟩, ⟨S512x64, p2⟩, ⟨S512x64, p3⟩] concatenates_S512x64_S512x64_S512x64_S512x64_S512x256_d1 (ix2 r e)
    0 (show 0 < 4 by decide) S512x64 p0 rfl rfl (0 * 64) rfl (ix2 r d)
    (fun a ha => match a, ha with
      | ⟨0, _⟩, _ => rfl
      | ⟨1, _⟩, ha => absurd rfl ha)
    he.symm
theorem side_by_side_1 {α : Type} (p0 p1 p2 p3 : S512x64.Idx → α) (r : Fin 512) (e : Fin 256) (d : Fin 64)
    (he : e.val = 1 * 64 + d.val) :
    concatenate S512x256 1 [⟨S512x64, p0⟩, ⟨S512x64, p1⟩, ⟨S512x64, p2⟩, ⟨S512x64, p3⟩] concatenates_S512x64_S512x64_S512x64_S512x64_S512x256_d1 (ix2 r e) = p1 (ix2 r d) :=
  concatenate_apply_piece (1 : Fin S512x256.rank) [⟨S512x64, p0⟩, ⟨S512x64, p1⟩, ⟨S512x64, p2⟩, ⟨S512x64, p3⟩] concatenates_S512x64_S512x64_S512x64_S512x64_S512x256_d1 (ix2 r e)
    1 (show 1 < 4 by decide) S512x64 p1 rfl rfl (1 * 64) rfl (ix2 r d)
    (fun a ha => match a, ha with
      | ⟨0, _⟩, _ => rfl
      | ⟨1, _⟩, ha => absurd rfl ha)
    he.symm
theorem side_by_side_2 {α : Type} (p0 p1 p2 p3 : S512x64.Idx → α) (r : Fin 512) (e : Fin 256) (d : Fin 64)
    (he : e.val = 2 * 64 + d.val) :
    concatenate S512x256 1 [⟨S512x64, p0⟩, ⟨S512x64, p1⟩, ⟨S512x64, p2⟩, ⟨S512x64, p3⟩] concatenates_S512x64_S512x64_S512x64_S512x64_S512x256_d1 (ix2 r e) = p2 (ix2 r d) :=
  concatenate_apply_piece (1 : Fin S512x256.rank) [⟨S512x64, p0⟩, ⟨S512x64, p1⟩, ⟨S512x64, p2⟩, ⟨S512x64, p3⟩] concatenates_S512x64_S512x64_S512x64_S512x64_S512x256_d1 (ix2 r e)
    2 (show 2 < 4 by decide) S512x64 p2 rfl rfl (2 * 64) rfl (ix2 r d)
    (fun a ha => match a, ha with
      | ⟨0, _⟩, _ => rfl
      | ⟨1, _⟩, ha => absurd rfl ha)
    he.symm
theorem side_by_side_3 {α : Type} (p0 p1 p2 p3 : S512x64.Idx → α) (r : Fin 512) (e : Fin 256) (d : Fin 64)
    (he : e.val = 3 * 64 + d.val) :
    concatenate S512x256 1 [⟨S512x64, p0⟩, ⟨S512x64, p1⟩, ⟨S512x64, p2⟩, ⟨S512x64, p3⟩] concatenates_S512x64_S512x64_S512x64_S512x64_S512x256_d1 (ix2 r e) = p3 (ix2 r d) :=
  concatenate_apply_piece (1 : Fin S512x256.rank) [⟨S512x64, p0⟩, ⟨S512x64, p1⟩, ⟨S512x64, p2⟩, ⟨S512x64, p3⟩] concatenates_S512x64_S512x64_S512x64_S512x64_S512x256_d1 (ix2 r e)
    3 (show 3 < 4 by decide) S512x64 p3 rfl rfl (3 * 64) rfl (ix2 r d)
    (fun a ha => match a, ha with
      | ⟨0, _⟩, _ => rfl
      | ⟨1, _⟩, ha => absurd rfl ha)
    he.symm

/-- THE STORED BLOCK AT (r, e): the tile formula of the three input blocks, at head e / 64 of the four and lane e % 64. -/
theorem out_apply (x0 : Vec Ideal S1x4x512x64 .bf16) (x1 x2 : Vec Ideal S1x4x2048x64 .bf16) (r : Fin 512) (e : Fin 256) :
    Gen.out1_3 (F := Ideal) x0 x1 x2 (ix3 (0 : Fin 1) r e) = Cert.Attention.blkCtx x0 x1 x2 r e := by
  rw [out_eq]
  refine (shapeCast_ab_1ab_apply _ shapeCasts_S512x256_S1x512x256 (0 : Fin 1) r e).trans ?_
  match hi : Cert.Attention.blkHead e with
  | ⟨0, _⟩ =>
    have hv : e.val / 64 = 0 := congrArg Fin.val hi
    refine (side_by_side_0 _ _ _ _ r e (Cert.Attention.blkLane e) (by show e.val = 0 * 64 + e.val % 64; omega)).trans ?_
    rw [headV_apply]
    exact hd_eq_blkCtx _ _ _ x0 x1 x2 e
      (fun r l => (selQ_apply 0 (by decide) _ x0 r l).trans (by rw [hi]))
      (fun j l => (selK_apply 0 (by decide) _ x1 j l).trans (by rw [hi]))
      (fun j l => (selK_apply 0 (by decide) _ x2 j l).trans (by rw [hi])) r
  | ⟨1, _⟩ =>
    have hv : e.val / 64 = 1 := congrArg Fin.val hi
    refine (side_by_side_1 _ _ _ _ r e (Cert.Attention.blkLane e) (by show e.val = 1 * 64 + e.val % 64; omega)).trans ?_
    rw [headV_apply]
    exact hd_eq_blkCtx _ _ _ x0 x1 x2 e
      (fun r l => (selQ_apply 1 (by decide) _ x0 r l).trans (by rw [hi]))
      (fun j l => (selK_apply 1 (by decide) _ x1 j l).trans (by rw [hi]))
      (fun j l => (selK_apply 1 (by decide) _ x2 j l).trans (by rw [hi])) r
  | ⟨2, _⟩ =>
    have hv : e.val / 64 = 2 := congrArg Fin.val hi
    refine (side_by_side_2 _ _ _ _ r e (Cert.Attention.blkLane e) (by show e.val = 2 * 64 + e.val % 64; omega)).trans ?_
    rw [headV_apply]
    exact hd_eq_blkCtx _ _ _ x0 x1 x2 e
      (fun r l => (selQ_apply 2 (by decide) _ x0 r l).trans (by rw [hi]))
      (fun j l => (selK_apply 2 (by decide) _ x1 j l).trans (by rw [hi]))
      (fun j l => (selK_apply 2 (by decide) _ x2 j l).trans (by rw [hi])) r
  | ⟨3, _⟩ =>
    have hv : e.val / 64 = 3 := congrArg Fin.val hi
    refine (side_by_side_3 _ _ _ _ r e (Cert.Attention.blkLane e) (by show e.val = 3 * 64 + e.val % 64; omega)).trans ?_
    rw [headV_apply]
    exact hd_eq_blkCtx _ _ _ x0 x1 x2 e
      (fun r l => (selQ_apply 3 (by decide) _ x0 r l).trans (by rw [hi]))
      (fun j l => (selK_apply 3 (by decide) _ x1 j l).trans (by rw [hi]))
      (fun j l => (selK_apply 3 (by decide) _ x2 j l).trans (by rw [hi])) r

end Cert.KernelIdeal.AttnPayload

end
-- ==== Proof.AttnArray.lean ====
/-
  The attention stage of the blocked computation, read as one array, given what one tile computes. The stage runs over
  64 grid points: point `t` is batch `t / 16`, head group `t / 4 % 4` (four heads each), query tile `t % 4` (512
  positions each). At a point the body is handed the query rows of its tile for its four heads, block [1, 4, 512, 64]
  at block index (batch, group, tile, 0) of the query array [4, 16, 2048, 64], and all 2048 key and value rows of the
  same four heads, blocks [1, 4, 2048, 64] at (batch, group, 0, 0); it stores a tile [1, 512, 256], written back to
  rows 512·tile … and columns 256·group … of batch `batch` of the output array [4, 2048, 1024]. A coordinate of a block
  is the block index times the block's extent plus the coordinate inside the block, so head `i` of a block is head
  4·group + i of the array, row `r` of a query block is position 512·tile + r, and column 256·group + e of the output
  is head 4·group + e / 64, lane e % 64. Hence the tile's attention — scores, row maximum, exponentials, their sum,
  the quotient, the combination of the value rows — taken on the blocks is, term by term, the whole arrays' context row
  at that batch, head, position and lane. The 64 tiles fill the output array (the entry at batch b, position s, column
  e lies in the tile of point 16·b + 4·(e / 256) + s / 512), so the array ends holding the context rows of all
  sixteen heads side by side. The statement takes the body's arithmetic as a hypothesis: the stored tile at row `r`,
  column `e` is the tile's attention of the three loaded blocks.
-/
import proofs.«128969_j32315333935918_2_alg».proof.KernelIdeal
import proofs.«128969_j32315333935918_2_alg».proof.Proof.Gen.KernelIdeal.Frame
import proofs.«128969_j32315333935918_2_alg».proof.Proof.AttentionSpec
import proofs.«128969_j32315333935918_2_alg».proof.Proof.AttentionBlock
import Idealize.ShloMosaic.Lib.Pipeline.Value
import Idealize.ShloMosaic.Lib.ValueIdx

noncomputable section

namespace Cert.KernelIdeal.AttnArray

open Cert.KernelIdeal Cert.KernelIdeal.Gen Idealize.ShloMosaic Idealize.ShloMosaic.TcCoe Idealize.SL.Sem Idealize.ShloMosaic.ValueIdx
open Idealize.ShloMosaic.Pipeline (Dat)
open Cert.Attention
open scoped BigOperators

/-! ## One tile's attention is the whole arrays' attention at the tile's heads and rows -/

section Tile

variable (Q K W : SHeads.Idx → EReal) (q : SQBlk.Idx → EReal) (k v : SKVBlk.Idx → EReal)
  (b : Fin 4) (hd : Fin 4 → Fin 16) (r : Fin 512) (R : Fin 2048)
  (hq : ∀ (i : Fin 4) (l : Fin 64), q (ix4 0 i r l) = Q (ix4 b (hd i) R l))
  (hk : ∀ (i : Fin 4) (j : Fin 2048) (l : Fin 64), k (ix4 0 i j l) = K (ix4 b (hd i) j l))
  (hv : ∀ (i : Fin 4) (j : Fin 2048) (l : Fin 64), v (ix4 0 i j l) = W (ix4 b (hd i) j l))

include hq hk in
theorem blkScore_eq (i : Fin 4) (j : Fin 2048) : blkScore q k i r j = scoreAt Q K b (hd i) R j := by
  unfold blkScore scoreAt
  simp only [hq, hk]

include hq hk in
theorem blkMax_eq (i : Fin 4) : blkMax q k i r = rowMaxAt Q K b (hd i) R := by
  unfold blkMax rowMaxAt
  simp only [blkScore_eq Q K q k b hd r R hq hk]

include hq hk in
theorem blkExp_eq (i : Fin 4) (j : Fin 2048) : blkExp q k i r j = expAt Q K b (hd i) R j := by
  unfold blkExp expAt
  rw [blkScore_eq Q K q k b hd r R hq hk, blkMax_eq Q K q k b hd r R hq hk]

include hq hk in
theorem blkDenom_eq (i : Fin 4) : blkDenom q k i r = denomAt Q K b (hd i) R := by
  unfold blkDenom denomAt
  simp only [blkExp_eq Q K q k b hd r R hq hk]

include hq hk hv in
/-- Entry `(r, e)` of a tile's result, when the tile's query block holds row `R` of heads `hd 0 … hd 3` of batch `b` at its
    row `r` and its key and value blocks hold all positions of the same heads: the context row of position `R`, head
    `hd (e / 64)`, at lane `e % 64`. -/
theorem blkCtx_eq (e : Fin 256) : blkCtx q k v r e = ctxAt Q K W b (hd (blkHead e)) R (blkLane e) := by
  unfold blkCtx ctxAt probAt
  simp only [blkExp_eq Q K q k b hd r R hq hk, blkDenom_eq Q K q k b hd r R hq hk, hv]

end Tile

/-! ## From blocks to the array -/

/-- The printed index maps over the 64 grid points. Point `t` is batch `t / 16`, head group `t / 4 % 4`, query tile
    `t % 4`. The output's block index is (batch, query tile, head group); the query window's is (batch, head group,
    query tile, 0); the key and value windows' are (batch, head group, 0, 0). -/
theorem idx_facts : ∀ t : Fin cfg1.N,
    win1_3.index t (0 : Fin 3) = t.val / 16 ∧ win1_3.index t (1 : Fin 3) = t.val % 4 ∧ win1_3.index t (2 : Fin 3) = t.val / 4 % 4
    ∧ win1_0.index t (0 : Fin 4) = t.val / 16 ∧ win1_0.index t (1 : Fin 4) = t.val / 4 % 4
    ∧ win1_0.index t (2 : Fin 4) = t.val % 4 ∧ win1_0.index t (3 : Fin 4) = 0
    ∧ win1_1.index t (0 : Fin 4) = t.val / 16 ∧ win1_1.index t (1 : Fin 4) = t.val / 4 % 4
    ∧ win1_1.index t (2 : Fin 4) = 0 ∧ win1_1.index t (3 : Fin 4) = 0
    ∧ win1_2.index t (0 : Fin 4) = t.val / 16 ∧ win1_2.index t (1 : Fin 4) = t.val / 4 % 4
    ∧ win1_2.index t (2 : Fin 4) = 0 ∧ win1_2.index t (3 : Fin 4) = 0 :=
  (by decide +kernel : ∀ t : Fin grid1.N, _)

section Array

variable (hout : ∀ (x0 : Vec Ideal S1x4x512x64 .bf16) (x1 x2 : Vec Ideal S1x4x2048x64 .bf16) (r : Fin 512) (e : Fin 256),
    Gen.out1_3 (F := Ideal) x0 x1 x2 (ix3 (0 : Fin 1) r e) = Cert.Attention.blkCtx x0 x1 x2 r e)
variable (V : (c : Dev nD) → (b : Ref sig .tc) → Buf (Elt Ideal) ((c : Thread nD τ).loc b))

/-- What the stage's output array holds when the stage ends, as one function of the three arrays it reads. -/
abbrev G (c : Dev nD) : S4x2048x1024.Idx → EReal :=
  Cert.Attention.ctx (V c main_v12_0 : S4x16x2048x64.Idx → EReal) (V c main_v12_1 : S4x16x2048x64.Idx → EReal) (V c main_v12_2 : S4x16x2048x64.Idx → EReal)

include hout in
/-- What grid point `t` writes back is block `t` of `G`. -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 V c).after 3 t) = _
  rw [after1_3]
  obtain ⟨e30, e31, e32, e00, e01, e02, e03, e10, e11, e12, e13, e20, e21, e22, e23⟩ := idx_facts t
  have ht : t.val < 64 := lt_of_lt_of_eq t.isLt N_1
  show (out1_3 (F := Ideal) (iblk1 V c 0 t) (iblk1 V c 1 t) (iblk1 V c 2 t) : S1x512x256.Idx → EReal)
      = fun y : S1x512x256.Idx => G V c (((cfg1.win 3).blk t).view.emb y)
  funext y
  obtain ⟨u, r, e, rfl⟩ : ∃ (u : Fin 1) (r : Fin 512) (e : Fin 256), y = ix3 u r e := ⟨y 0, y 1, y 2, eq_ix3 y⟩
  obtain rfl : u = 0 := Subsingleton.elim _ _
  have hB : t.val / 16 < 4 := by omega
  have hR : t.val % 4 * 512 + r.val < 2048 := by have := r.isLt; omega
  have hE : t.val / 4 % 4 * 256 + e.val < 1024 := by have := e.isLt; omega
  have hH : ∀ i : Fin 4, t.val / 4 % 4 * 4 + i.val < 16 := fun i => by have := i.isLt; omega
  have hemb : (((cfg1.win 3).blk t).view.emb (ix3 (0 : Fin 1) r e) : S4x2048x1024.Idx)
      = ix3 (⟨t.val / 16, hB⟩ : Fin 4) (⟨t.val % 4 * 512 + r.val, hR⟩ : Fin 2048) (⟨t.val / 4 % 4 * 256 + e.val, hE⟩ : Fin 1024) := by
    funext a; apply Fin.ext
    match a with
    | ⟨0, _⟩ => show win1_3.index t (0 : Fin 3) * 1 + 1 * (0 : Fin 1).val = t.val / 16; rw [e30]; simp
    | ⟨1, _⟩ => show win1_3.index t (1 : Fin 3) * 512 + 1 * r.val = t.val % 4 * 512 + r.val; rw [e31]; omega
    | ⟨2, _⟩ => show win1_3.index t (2 : Fin 3) * 256 + 1 * e.val = t.val / 4 % 4 * 256 + e.val; rw [e32]; omega
  refine (hout (iblk1 V c 0 t) (iblk1 V c 1 t) (iblk1 V c 2 t) r e).trans ?_
  rw [hemb]
  refine Eq.trans ?_ (Cert.Attention.ctx_ix3 _ _ _ _ _ _).symm
  have hhead : headOf (⟨t.val / 4 % 4 * 256 + e.val, hE⟩ : Fin 1024) = (⟨t.val / 4 % 4 * 4 + (blkHead e).val, hH (blkHead e)⟩ : Fin 16) := by
    apply Fin.ext
    show (t.val / 4 % 4 * 256 + e.val) / 64 = t.val / 4 % 4 * 4 + e.val / 64
    omega
  have hlane : laneOf (⟨t.val / 4 % 4 * 256 + e.val, hE⟩ : Fin 1024) = blkLane e := by
    apply Fin.ext
    show (t.val / 4 % 4 * 256 + e.val) % 64 = e.val % 64
    omega
  rw [hhead, hlane]
  refine blkCtx_eq _ _ _ _ _ _ (⟨t.val / 16, hB⟩ : Fin 4) (fun i => (⟨t.val / 4 % 4 * 4 + i.val, hH i⟩ : Fin 16)) r
    (⟨t.val % 4 * 512 + r.val, hR⟩ : Fin 2048) (fun i l => ?_) (fun i j l => ?_) (fun i j l => ?_) e
  · show V c main_v12_0 (((cfg1.win 0).blk t).view.emb (ix4 (0 : Fin 1) i r l)) = V c main_v12_0 (ix4 (⟨t.val / 16, hB⟩ : Fin 4) (⟨t.val / 4 % 4 * 4 + i.val, hH i⟩ : Fin 16) (⟨t.val % 4 * 512 + r.val, hR⟩ : Fin 2048) l)
    refine congrArg (V c main_v12_0) (funext fun a => Fin.ext ?_)
    match a with
    | ⟨0, _⟩ => show win1_0.index t (0 : Fin 4) * 1 + 1 * (0 : Fin 1).val = t.val / 16; rw [e00]; simp
    | ⟨1, _⟩ => show win1_0.index t (1 : Fin 4) * 4 + 1 * i.val = t.val / 4 % 4 * 4 + i.val; rw [e01]; omega
    | ⟨2, _⟩ => show win1_0.index t (2 : Fin 4) * 512 + 1 * r.val = t.val % 4 * 512 + r.val; rw [e02]; omega
    | ⟨3, _⟩ => show win1_0.index t (3 : Fin 4) * 64 + 1 * l.val = l.val; rw [e03]; omega
  · show V c main_v12_1 (((cfg1.win 1).blk t).view.emb (ix4 (0 : Fin 1) i j l)) = V c main_v12_1 (ix4 (⟨t.val / 16, hB⟩ : Fin 4) (⟨t.val / 4 % 4 * 4 + i.val, hH i⟩ : Fin 16) j l)
    refine congrArg (V c main_v12_1) (funext fun a => Fin.ext ?_)
    match a with
    | ⟨0, _⟩ => show win1_1.index t (0 : Fin 4) * 1 + 1 * (0 : Fin 1).val = t.val / 16; rw [e10]; simp
    | ⟨1, _⟩ => show win1_1.index t (1 : Fin 4) * 4 + 1 * i.val = t.val / 4 % 4 * 4 + i.val; rw [e11]; omega
    | ⟨2, _⟩ => show win1_1.index t (2 : Fin 4) * 2048 + 1 * j.val = j.val; rw [e12]; omega
    | ⟨3, _⟩ => show win1_1.index t (3 : Fin 4) * 64 + 1 * l.val = l.val; rw [e13]; omega
  · show V c main_v12_2 (((cfg1.win 2).blk t).view.emb (ix4 (0 : Fin 1) i j l)) = V c main_v12_2 (ix4 (⟨t.val / 16, hB⟩ : Fin 4) (⟨t.val / 4 % 4 * 4 + i.val, hH i⟩ : Fin 16) j l)
    refine congrArg (V c main_v12_2) (funext fun a => Fin.ext ?_)
    match a with
    | ⟨0, _⟩ => show win1_2.index t (0 : Fin 4) * 1 + 1 * (0 : Fin 1).val = t.val / 16; rw [e20]; simp
    | ⟨1, _⟩ => show win1_2.index t (1 : Fin 4) * 4 + 1 * i.val = t.val / 4 % 4 * 4 + i.val; rw [e21]; omega
    | ⟨2, _⟩ => show win1_2.index t (2 : Fin 4) * 2048 + 1 * j.val = j.val; rw [e22]; omega
    | ⟨3, _⟩ => show win1_2.index t (3 : Fin 4) * 64 + 1 * l.val = l.val; rw [e23]; omega

/-- An index of the output array is in point `t`'s block iff each coordinate is in the block's range on its axis. -/
theorem mem_blk (t : Fin cfg1.N) (i : S4x2048x1024.Idx) :
    i ∈ ((cfg1.win 3).blk t).view.set ↔ ∀ a : Fin 3, win1_3.index t a * S1x512x256.size a ≤ (i a).val ∧ (i a).val < win1_3.index t a * S1x512x256.size a + S1x512x256.size a := by
  show i ∈ ((View.whole main_v13).slice (win1_3.rect t)).set ↔ _
  rw [View.set_slice_whole, Rect.mem_set_unit]
  exact Iff.rfl

/-- Every entry of the output array lies in some point's block: batch `b`, position `s`, column `e` in that of the
    point of batch `b`, head group `e / 256`, query tile `s / 512`. -/
theorem cover (i : S4x2048x1024.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  have hN : (i 0).val * 16 + (i 2).val / 256 * 4 + (i 1).val / 512 < cfg1.N := by rw [show cfg1.N = 64 from N_1]; omega
  obtain ⟨e30, e31, e32, -⟩ := idx_facts ⟨(i 0).val * 16 + (i 2).val / 256 * 4 + (i 1).val / 512, hN⟩
  refine ⟨⟨(i 0).val * 16 + (i 2).val / 256 * 4 + (i 1).val / 512, hN⟩, flush1_3 _, ?_⟩
  rw [mem_blk]
  intro a
  match a with
  | ⟨0, _⟩ =>
    show win1_3.index ⟨(i 0).val * 16 + (i 2).val / 256 * 4 + (i 1).val / 512, hN⟩ (0 : Fin 3) * 1 ≤ (i 0).val
      ∧ (i 0).val < win1_3.index ⟨(i 0).val * 16 + (i 2).val / 256 * 4 + (i 1).val / 512, hN⟩ (0 : Fin 3) * 1 + 1
    rw [e30]
    show ((i 0).val * 16 + (i 2).val / 256 * 4 + (i 1).val / 512) / 16 * 1 ≤ (i 0).val
      ∧ (i 0).val < ((i 0).val * 16 + (i 2).val / 256 * 4 + (i 1).val / 512) / 16 * 1 + 1
    omega
  | ⟨1, _⟩ =>
    show win1_3.index ⟨(i 0).val * 16 + (i 2).val / 256 * 4 + (i 1).val / 512, hN⟩ (1 : Fin 3) * 512 ≤ (i 1).val
      ∧ (i 1).val < win1_3.index ⟨(i 0).val * 16 + (i 2).val / 256 * 4 + (i 1).val / 512, hN⟩ (1 : Fin 3) * 512 + 512
    rw [e31]
    show ((i 0).val * 16 + (i 2).val / 256 * 4 + (i 1).val / 512) % 4 * 512 ≤ (i 1).val
      ∧ (i 1).val < ((i 0).val * 16 + (i 2).val / 256 * 4 + (i 1).val / 512) % 4 * 512 + 512
    omega
  | ⟨2, _⟩ =>
    show win1_3.index ⟨(i 0).val * 16 + (i 2).val / 256 * 4 + (i 1).val / 512, hN⟩ (2 : Fin 3) * 256 ≤ (i 2).val
      ∧ (i 2).val < win1_3.index ⟨(i 0).val * 16 + (i 2).val / 256 * 4 + (i 1).val / 512, hN⟩ (2 : Fin 3) * 256 + 256
    rw [e32]
    show ((i 0).val * 16 + (i 2).val / 256 * 4 + (i 1).val / 512) / 4 % 4 * 256 ≤ (i 2).val
      ∧ (i 2).val < ((i 0).val * 16 + (i 2).val / 256 * 4 + (i 1).val / 512) / 4 % 4 * 256 + 256
    omega

include hout in
/-- The stage's output array when the stage ends, given that the body's stored tile is the tile's attention: the context
    rows of all sixteen heads side by side, for every batch and position. -/
theorem final_ctx_of (c : Dev nD) :
    (Gen.dat1 (F := Ideal) V c).arrAt 3 cfg1.N
      = Cert.Attention.ctx (V c main_v12_0 : S4x16x2048x64.Idx → EReal) (V c main_v12_1 : S4x16x2048x64.Idx → EReal) (V c main_v12_2 : S4x16x2048x64.Idx → EReal) :=
  (dat1 (F := Ideal) V c).arrAt_eq_of_cover 3 (G V c) (fun t _ => flushed_eq hout V c t) cover

end Array

end Cert.KernelIdeal.AttnArray

end
-- ==== Proof.LinearValue.lean ====
/-
  The output projection's stage of the blocked computation, read as one array. The stage runs over sixteen grid points.
  At point `t` it is handed rows 512·t … 512·t + 511 of the flattened activations [8192, 1024], the whole weight
  [1024, 1024] and the whole bias row [1, 1024], and it stores one block [512, 1024]: at the block's row `r` and
  column `f` the sum over `e` of the activations' entry (r, e) times the weight's entry (f, e) — a product into a zero
  accumulator, contracted over the second axis of both operands — plus the bias row's entry at `f`. That block is
  written back to rows 512·t … 512·t + 511 of the output array. Row `R` of the output array lies in the block of point
  `R / 512` and the sixteen blocks fill the array, so when the stage ends the array holds, at every (R, f), row `R` of
  the activations against row `f` of the weight plus the bias at `f`: the projection over flattened rows.
-/
import proofs.«128969_j32315333935918_2_alg».proof.KernelIdeal
import proofs.«128969_j32315333935918_2_alg».proof.Proof.Gen.KernelIdeal.Frame
import proofs.«128969_j32315333935918_2_alg».proof.Proof.AttentionSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LinearValue

open Cert.KernelIdeal Cert.KernelIdeal.Gen Idealize.ShloMosaic Idealize.ShloMosaic.TcCoe Idealize.SL.Sem Idealize.ShloMosaic.ValueIdx
open Idealize.ShloMosaic.Pipeline (Dat)
open scoped BigOperators

/-- The dimension numbers of the stage's one product: rows of the left operand against rows of the right one, the
    contraction over the second axis of both. -/
abbrev dotLin : DotDims S512x1024 S1024x1024 S512x1024 := dot_S512x1024_S1024x1024_S512x1024_1_1_0_0_n_n

theorem lhs_row (j : S512x1024.Idx) (q : dotLin.contr.Idx) : (dotLin.lhsIdx j q 0).val = (j 0).val := by
  unfold DotDims.lhsIdx
  rw [dif_neg (show ¬(0 : Fin S512x1024.rank) ∈ dotLin.lhsBatch by decide), dif_pos (show (0 : Fin S512x1024.rank) ∈ dotLin.lhsNonContracting by decide)]
  rfl
theorem lhs_k (j : S512x1024.Idx) (q : dotLin.contr.Idx) : (dotLin.lhsIdx j q 1).val = (q ⟨0, by decide⟩).val :=
  dotLin.lhsIdx_val_of_single rfl j q
theorem rhs_row (j : S512x1024.Idx) (q : dotLin.contr.Idx) : (dotLin.rhsIdx j q 0).val = (j 1).val := by
  unfold DotDims.rhsIdx
  rw [dif_neg (show ¬(0 : Fin S1024x1024.rank) ∈ dotLin.rhsBatch by decide), dif_pos (show (0 : Fin S1024x1024.rank) ∈ dotLin.rhsNonContracting by decide)]
  rfl
theorem rhs_k (j : S512x1024.Idx) (q : dotLin.contr.Idx) : (dotLin.rhsIdx j q 1).val = (q ⟨0, by decide⟩).val :=
  dotLin.rhsIdx_val_of_single rfl j q

/-- The product into a zero accumulator, at row `r` and column `f`: row `r` of the left operand against row `f` of the
    right one. -/
theorem matmul_at (x0 : FVec Ideal S512x1024 .bf16) (x1 : FVec Ideal S1024x1024 .bf16) (r : Fin 512) (f : Fin 1024) :
    matmul dotLin none x0 x1 (constant (F := Ideal) S512x1024 .f32 0x00000000#32) (ix2 r f)
      = ∑ e : Fin 1024, x0 (ix2 r e) * x1 (ix2 f e) := by
  simp only [matmul]
  rw [Ideal.matmul_constant_zero_apply, ← Equiv.sum_comp (contrEquiv1 dotLin 1024 rfl rfl).symm]
  refine Finset.sum_congr rfl fun k _ => ?_
  have hk := contrEquiv1_symm_val dotLin 1024 rfl rfl k
  have el : dotLin.lhsIdx (ix2 r f) ((contrEquiv1 dotLin 1024 rfl rfl).symm k) = ix2 r k := funext fun a => Fin.ext (by
    match a with
    | ⟨0, _⟩ => exact lhs_row _ _
    | ⟨1, _⟩ => exact (lhs_k _ _).trans hk)
  have er : dotLin.rhsIdx (ix2 r f) ((contrEquiv1 dotLin 1024 rfl rfl).symm k) = ix2 f k := funext fun a => Fin.ext (by
    match a with
    | ⟨0, _⟩ => exact rhs_row _ _
    | ⟨1, _⟩ => exact (rhs_k _ _).trans hk)
  rw [el, er]

/-- The body's one stored value at row `r`, column `f` of its block, over any three loaded blocks: row `r` of the
    activations' block against row `f` of the weight, plus the bias row at `f`. -/
theorem pay_apply (x0 : Vec Ideal S512x1024 .bf16) (x1 : Vec Ideal S1024x1024 .bf16) (x2 : Vec Ideal S1x1024 .f32)
    (r : Fin 512) (f : Fin 1024) :
    k2_pay1 (F := Ideal) x0 x1 x2 (ix2 r f) = (∑ e : Fin 1024, x0 (ix2 r e) * x1 (ix2 f e)) + x2 (ix2 (0 : Fin 1) f) := by
  unfold k2_pay1
  simp only [shapeCast_self]
  rw [addf_apply, matmul_at, broadcastTo_1b_ab_apply]

/-! ## From blocks to the array -/

theorem hz : (![0, 0] : Fin 2 → Nat) = fun _ => 0 := funext fun a => by fin_cases a <;> rfl

/-- The body's stored value at a block's row `r`, column `f` is the projection's entry at row `R`, column `f`, as soon as the
    activations' block holds row `R` of the activations at its row `r` and the other two blocks are the whole weight and
    the whole bias row. -/
theorem pay_eq_lin (A : Cert.Attention.SRows.Idx → EReal) (w : Cert.Attention.SWout.Idx → EReal)
    (b : Cert.Attention.SBoutRow.Idx → EReal)
    (x0 : Vec Ideal S512x1024 .bf16) (x1 : Vec Ideal S1024x1024 .bf16) (x2 : Vec Ideal S1x1024 .f32)
    (r : Fin 512) (f : Fin 1024) (R : Fin 8192)
    (h0 : ∀ e : Fin 1024, x0 (ix2 r e) = A (ix2 R e)) (h1 : x1 = w) (h2 : x2 = b) :
    k2_pay1 (F := Ideal) x0 x1 x2 (ix2 r f) = Cert.Attention.lin A w b (ix2 R f) := by
  rw [pay_apply, Cert.Attention.lin_ix2]
  unfold Cert.Attention.linAt
  subst h1 h2
  simp only [h0]

/-- The printed index maps over the sixteen grid points: the activations' window and the output's move together down the
    rows, one block of 512 rows per point, and stay in column block 0; the weight's and the bias row's windows stay at
    block (0, 0). -/
theorem idx_facts : ∀ t : Fin cfg2.N, win2_3.index t (0 : Fin 2) = t.val ∧ win2_3.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

variable (V : (c : Dev nD) → (b : Ref sig .tc) → Buf (Elt Ideal) ((c : Thread nD τ).loc b))

/-- What the stage's output array holds when the stage ends, as one function of the three arrays it reads. -/
abbrev G (c : Dev nD) : S8192x1024.Idx → EReal :=
  Cert.Attention.lin (V c main_v15 : S8192x1024.Idx → EReal) (V c main_v14 : S1024x1024.Idx → EReal) (V c main_v16 : S1x1024.Idx → EReal)

/-- What grid point `t` writes back is block `t` of `G`. -/
theorem flushed_eq (c : Dev nD) (t : Fin cfg2.N) :
    (dat2 (F := Ideal) V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S512x1024) hz, View.ld_unit_zero (S := S1024x1024) hz, View.ld_unit_zero (S := S1x1024) hz]
  obtain ⟨e30, e31, e00, e01, e10, e11, e20, e21⟩ := idx_facts t
  have ht : t.val < 16 := lt_of_lt_of_eq t.isLt N_2
  show (k2_pay1 (F := Ideal) (iblk2 V c 0 t) (iblk2 V c 1 t) (iblk2 V c 2 t) : S512x1024.Idx → EReal)
      = fun y : S512x1024.Idx => G V c (((cfg2.win 3).blk t).view.emb y)
  funext y
  obtain ⟨r, f, rfl⟩ : ∃ (r : Fin 512) (f : Fin 1024), y = ix2 r f := ⟨y 0, y 1, eq_ix2 y⟩
  have hR : t.val * 512 + r.val < 8192 := by have := r.isLt; omega
  have hemb : (((cfg2.win 3).blk t).view.emb (ix2 r f) : S8192x1024.Idx) = ix2 (⟨t.val * 512 + r.val, hR⟩ : Fin 8192) f := by
    funext a; apply Fin.ext
    match a with
    | ⟨0, _⟩ => show win2_3.index t (0 : Fin 2) * 512 + 1 * r.val = t.val * 512 + r.val; rw [e30]; omega
    | ⟨1, _⟩ => show win2_3.index t (1 : Fin 2) * 1024 + 1 * f.val = f.val; rw [e31]; omega
  show _ = G V c (((cfg2.win 3).blk t).view.emb (ix2 r f))
  rw [hemb]
  refine pay_eq_lin _ _ _ _ _ _ r f ⟨t.val * 512 + r.val, hR⟩ (fun e => ?_) ?_ ?_
  · show V c main_v15 (((cfg2.win 0).blk t).view.emb (ix2 r e)) = V c main_v15 (ix2 (⟨t.val * 512 + r.val, hR⟩ : Fin 8192) e)
    refine congrArg (V c main_v15) (funext fun a => Fin.ext ?_)
    match a with
    | ⟨0, _⟩ => show win2_0.index t (0 : Fin 2) * 512 + 1 * r.val = t.val * 512 + r.val; rw [e00]; omega
    | ⟨1, _⟩ => show win2_0.index t (1 : Fin 2) * 1024 + 1 * e.val = e.val; rw [e01]; omega
  · funext y
    show V c main_v14 (((cfg2.win 1).blk t).view.emb y) = V c main_v14 y
    refine congrArg (V c main_v14) (funext fun a => Fin.ext ?_)
    match a with
    | ⟨0, _⟩ => show win2_1.index t (0 : Fin 2) * 1024 + 1 * (y 0).val = (y 0).val; rw [e10]; omega
    | ⟨1, _⟩ => show win2_1.index t (1 : Fin 2) * 1024 + 1 * (y 1).val = (y 1).val; rw [e11]; omega
  · funext y
    show V c main_v16 (((cfg2.win 2).blk t).view.emb y) = V c main_v16 y
    refine congrArg (V c main_v16) (funext fun a => Fin.ext ?_)
    match a with
    | ⟨0, _⟩ => show win2_2.index t (0 : Fin 2) * 1 + 1 * (y 0).val = (y 0).val; rw [e20]; omega
    | ⟨1, _⟩ => show win2_2.index t (1 : Fin 2) * 1024 + 1 * (y 1).val = (y 1).val; rw [e21]; omega

/-- An index of the output array is in point `t`'s block iff each coordinate is in the block's range on its axis. -/
theorem mem_blk (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v17).slice (win2_3.rect t)).set ↔ _
  rw [View.set_slice_whole, Rect.mem_set_unit]
  exact Iff.rfl

/-- Every row of the output array lies in some point's block: row `R` in that of point `R / 512`. -/
theorem cover (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  have hN : (i 0).val / 512 < cfg2.N := by rw [show cfg2.N = 16 from N_2]; omega
  obtain ⟨e30, e31, -⟩ := idx_facts ⟨(i 0).val / 512, hN⟩
  refine ⟨⟨(i 0).val / 512, hN⟩, flush2_3 _, ?_⟩
  rw [mem_blk]
  intro a
  match a with
  | ⟨0, _⟩ =>
    show win2_3.index ⟨(i 0).val / 512, hN⟩ (0 : Fin 2) * 512 ≤ (i 0).val ∧ (i 0).val < win2_3.index ⟨(i 0).val / 512, hN⟩ (0 : Fin 2) * 512 + 512
    rw [e30]; show (i 0).val / 512 * 512 ≤ (i 0).val ∧ (i 0).val < (i 0).val / 512 * 512 + 512; omega
  | ⟨1, _⟩ =>
    show win2_3.index ⟨(i 0).val / 512, hN⟩ (1 : Fin 2) * 1024 ≤ (i 1).val ∧ (i 1).val < win2_3.index ⟨(i 0).val / 512, hN⟩ (1 : Fin 2) * 1024 + 1024
    rw [e31]; omega

/-- The stage's output array when the stage ends: every row of the flattened activations sent through the output
    projection — that row against each row of the weight, plus the bias row. -/
theorem final_lin (c : Dev nD) :
    (Gen.dat2 (F := Ideal) V c).arrAt 3 cfg2.N
      = Cert.Attention.lin (V c main_v15 : S8192x1024.Idx → EReal) (V c main_v14 : S1024x1024.Idx → EReal) (V c main_v16 : S1x1024.Idx → EReal) :=
  (dat2 (F := Ideal) V c).arrAt_eq_of_cover 3 (G V c) (fun t _ => flushed_eq V c t) cover

end Cert.KernelIdeal.LinearValue

end
-- ==== Proof.Consts.lean ====
/-
  The two float words the attention scores meet, as the extended reals they denote. The word `0x41000000` has sign 0,
  exponent field 130 and fraction 0, so it is 2^23 · 2^(130 − 127 − 23) = 8; the word `0x3E000000` has exponent field
  124 and fraction 0, so it is 2^23 · 2^(124 − 127 − 23) = 1/8. Eight is a nonzero real, so dividing an extended real
  by the first word is multiplying it by the second.
-/
import Idealize.ShloMosaic.PureOps.Ideal

noncomputable section

namespace Cert.Consts

open Idealize.ShloMosaic

/-- The word `0x41000000` denotes the real 8. -/
theorem ofBits_eight : Ideal.ofBits .f32 0x41000000#32 = ((8 : ℝ) : EReal) := by
  simp [Ideal.ofBits, Ideal.ieee, -EReal.coe_mul]; norm_num

/-- The word `0x3E000000` denotes the real 1/8. -/
theorem ofBits_eighth : Ideal.ofBits .f32 0x3E000000#32 = ((1 / 8 : ℝ) : EReal) := by
  simp [Ideal.ofBits, Ideal.ieee, -EReal.coe_mul]; norm_num

/-- Dividing by eight is multiplying by one eighth, for every extended real (infinities included: the divisor is a
    nonzero real). -/
theorem div_eight (x : EReal) : Ideal.div x (Ideal.ofBits .f32 0x41000000#32) = x * Ideal.ofBits .f32 0x3E000000#32 := by
  rw [ofBits_eight, ofBits_eighth]
  exact Ideal.div_coe (by norm_num) x

end Cert.Consts

end
-- ==== Proof.RefValue.lean ====
/-
  The reference computation, read stage by stage, is multi-head attention as the shared specification writes it.

  Each stage of the reference is read at an index with literal coordinates. The fused projection at (b, s, e) is
  row e of the fused weight against the feature row of position s, plus the bias at e. Splitting the 3072 fused
  columns into 16 groups of 192, swapping the position and head axes and cutting lanes 0..63, 64..127, 128..191
  gives the query, key and value rows of head h: fused row h·192 + p·64 + d. The scores are the lanes' dot product
  divided by eight, which is the product with one eighth. The row maximum is a maximum-reduce over the key axis,
  read as the order-free fold of max from minus infinity; taking the maximum with minus infinity once more changes
  nothing, because a fold of max is at least its starting value. The exponentials, their row sum from a zero
  initial value, the quotient and the combination of value rows follow term by term. Swapping the axes back and
  merging head and lane into one column e puts head e / 64, lane e % 64 at column e, and the output projection is
  row f of the output weight against that row, plus the output bias at f.
-/
import proofs.«128969_j32315333935918_2_alg».proof.Proof.Gen.ReferenceIdeal.Read
import proofs.«128969_j32315333935918_2_alg».proof.Proof.AttentionSpec
import proofs.«128969_j32315333935918_2_alg».proof.Proof.Consts
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.Attention
open Idealize.ShloMosaic Idealize.ShloMosaic.ValueIdx
open scoped BigOperators

/-! ## The fused projection -/

/-- The fused projection at (b, s, e): row e of the weight against the feature row, plus the bias at e. -/
theorem fused_at (x0 : (⟨S4x2048x1024, .f32⟩ : BufTy).Contents (Elt Ideal)) (x1 : (⟨S3072x1024, .f32⟩ : BufTy).Contents (Elt Ideal)) (x2 : (⟨S3072, .f32⟩ : BufTy).Contents (Elt Ideal))
    (b : Fin 4) (s : Fin 2048) (e : Fin 3072) :
    val_main_v3 (F := Ideal) x0 x1 x2 (ix3 b s e) = (∑ k : Fin 1024, x0 (ix3 b s k) * x1 (ix2 e k)) + x2 (ix1 e) := by
  rw [val_main_v3_apply, val_main_v0_apply, val_main_v2_apply, val_main_v1_apply]
  have hl : ∀ k : Fin 1024, lidx_main_v0 (ix3 b s e) k = ix3 b s k := fun k => funext fun a => by
    match a with
    | ⟨0, _⟩ => rfl
    | ⟨1, _⟩ => rfl
    | ⟨2, _⟩ => rfl
  have hr : ∀ k : Fin 1024, ridx_main_v0 (ix3 b s e) k = ix2 e k := fun k => funext fun a => by
    match a with
    | ⟨0, _⟩ => rfl
    | ⟨1, _⟩ => rfl
  have hb : idx_main_v1 (idx_main_v2 (ix3 b s e)) = ix1 e := funext fun a => by
    match a with
    | ⟨0, _⟩ => rfl
  exact congrArg₂ (· + ·) (Finset.sum_congr rfl fun k _ => by rw [hl k, hr k]) (congrArg x2 hb)

/-! ## Heads: the 3072 columns as 16 groups of 192, position and head swapped -/

/-- Column r of head h at position s is fused column h·192 + r. -/
theorem heads_at (x0 : (⟨S4x2048x1024, .f32⟩ : BufTy).Contents (Elt Ideal)) (x1 : (⟨S3072x1024, .f32⟩ : BufTy).Contents (Elt Ideal)) (x2 : (⟨S3072, .f32⟩ : BufTy).Contents (Elt Ideal))
    (b : Fin 4) (h : Fin 16) (s : Fin 2048) (r : Fin 192) :
    val_main_v5 (F := Ideal) x0 x1 x2 (ix4 b h s r)
      = val_main_v3 (F := Ideal) x0 x1 x2 (ix3 b s (⟨h.val * 192 + r.val, by omega⟩ : Fin 3072)) := by
  rw [val_main_v5_apply, val_main_v4_apply]
  refine congrArg (val_main_v3 (F := Ideal) x0 x1 x2) (funext fun a => Fin.ext ?_)
  have hb := b.isLt; have hh := h.isLt; have hs := s.isLt; have hr := r.isLt
  match a with
  | ⟨0, _⟩ => show (((b.val * 2048 + s.val) * 16 + h.val) * 192 + r.val) / 6291456 = b.val; omega
  | ⟨1, _⟩ => show (((b.val * 2048 + s.val) * 16 + h.val) * 192 + r.val) / 3072 % 2048 = s.val; omega
  | ⟨2, _⟩ => show (((b.val * 2048 + s.val) * 16 + h.val) * 192 + r.val) % 3072 = h.val * 192 + r.val; omega

/-! ## The query, key and value rows of a head -/

/-- Lanes 0..63 of a head's 192 columns are its query row: part 0 of the fused projection. -/
theorem query_at (x0 : (⟨S4x2048x1024, .f32⟩ : BufTy).Contents (Elt Ideal)) (x1 : (⟨S3072x1024, .f32⟩ : BufTy).Contents (Elt Ideal)) (x2 : (⟨S3072, .f32⟩ : BufTy).Contents (Elt Ideal))
    (b : Fin 4) (h : Fin 16) (s : Fin 2048) (d : Fin 64) :
    val_main_v6 (F := Ideal) x0 x1 x2 (ix4 b h s d) = headProj 0 x0 x1 x2 (ix4 b h s d) := by
  have hi : idx_main_v6 (ix4 b h s d) = ix4 b h s (⟨0 + d.val, by omega⟩ : Fin 192) := funext fun a => by
    match a with
    | ⟨0, _⟩ => rfl
    | ⟨1, _⟩ => rfl
    | ⟨2, _⟩ => rfl
    | ⟨3, _⟩ => exact Fin.ext (by show d.val = 0 + d.val; omega)
  have hrow : (⟨h.val * 192 + (0 + d.val), by omega⟩ : Fin 3072) = fusedRow 0 h d :=
    Fin.ext (by show h.val * 192 + (0 + d.val) = h.val * 192 + 0 * 64 + d.val; omega)
  rw [val_main_v6_apply, hi, heads_at, fused_at, headProj_ix4]
  show _ = (∑ k : Fin 1024, x0 (ix3 b s k) * x1 (ix2 (fusedRow 0 h d) k)) + x2 (ix1 (fusedRow 0 h d))
  rw [hrow]

/-- Lanes 64..127 of a head's 192 columns are its key row: part 1 of the fused projection. -/
theorem key_at (x0 : (⟨S4x2048x1024, .f32⟩ : BufTy).Contents (Elt Ideal)) (x1 : (⟨S3072x1024, .f32⟩ : BufTy).Contents (Elt Ideal)) (x2 : (⟨S3072, .f32⟩ : BufTy).Contents (Elt Ideal))
    (b : Fin 4) (h : Fin 16) (s : Fin 2048) (d : Fin 64) :
    val_main_v7 (F := Ideal) x0 x1 x2 (ix4 b h s d) = headProj 1 x0 x1 x2 (ix4 b h s d) := by
  have hi : idx_main_v7 (ix4 b h s d) = ix4 b h s (⟨64 + d.val, by omega⟩ : Fin 192) := funext fun a => by
    match a with
    | ⟨0, _⟩ => rfl
    | ⟨1, _⟩ => rfl
    | ⟨2, _⟩ => rfl
    | ⟨3, _⟩ => exact Fin.ext (by show 64 + d.val = 64 + d.val; omega)
  have hrow : (⟨h.val * 192 + (64 + d.val), by omega⟩ : Fin 3072) = fusedRow 1 h d :=
    Fin.ext (by show h.val * 192 + (64 + d.val) = h.val * 192 + 1 * 64 + d.val; omega)
  rw [val_main_v7_apply, hi, heads_at, fused_at, headProj_ix4]
  show _ = (∑ k : Fin 1024, x0 (ix3 b s k) * x1 (ix2 (fusedRow 1 h d) k)) + x2 (ix1 (fusedRow 1 h d))
  rw [hrow]

/-- Lanes 128..191 of a head's 192 columns are its value row: part 2 of the fused projection. -/
theorem value_at (x0 : (⟨S4x2048x1024, .f32⟩ : BufTy).Contents (Elt Ideal)) (x1 : (⟨S3072x1024, .f32⟩ : BufTy).Contents (Elt Ideal)) (x2 : (⟨S3072, .f32⟩ : BufTy).Contents (Elt Ideal))
    (b : Fin 4) (h : Fin 16) (s : Fin 2048) (d : Fin 64) :
    val_main_v8 (F := Ideal) x0 x1 x2 (ix4 b h s d) = headProj 2 x0 x1 x2 (ix4 b h s d) := by
  have hi : idx_main_v8 (ix4 b h s d) = ix4 b h s (⟨128 + d.val, by omega⟩ : Fin 192) := funext fun a => by
    match a with
    | ⟨0, _⟩ => rfl
    | ⟨1, _⟩ => rfl
    | ⟨2, _⟩ => rfl
    | ⟨3, _⟩ => exact Fin.ext (by show 128 + d.val = 128 + d.val; omega)
  have hrow : (⟨h.val * 192 + (128 + d.val), by omega⟩ : Fin 3072) = fusedRow 2 h d :=
    Fin.ext (by show h.val * 192 + (128 + d.val) = h.val * 192 + 2 * 64 + d.val; omega)
  rw [val_main_v8_apply, hi, heads_at, fused_at, headProj_ix4]
  show _ = (∑ k : Fin 1024, x0 (ix3 b s k) * x1 (ix2 (fusedRow 2 h d) k)) + x2 (ix1 (fusedRow 2 h d))
  rw [hrow]

/-! ## Scores -/

/-- The score of query position q against key position k: the dot product of the two rows over eight, that is
    times one eighth. -/
theorem score_at (x0 : (⟨S4x2048x1024, .f32⟩ : BufTy).Contents (Elt Ideal)) (x1 : (⟨S3072x1024, .f32⟩ : BufTy).Contents (Elt Ideal)) (x2 : (⟨S3072, .f32⟩ : BufTy).Contents (Elt Ideal))
    (hdiv : ∀ x : EReal, Ideal.div x (Ideal.ofBits .f32 0x41000000#32) = x * Ideal.ofBits .f32 0x3E000000#32)
    (b : Fin 4) (h : Fin 16) (q k : Fin 2048) :
    val_main_v11 (F := Ideal) x0 x1 x2 (ix4 b h q k)
      = scoreAt (headProj 0 x0 x1 x2) (headProj 1 x0 x1 x2) b h q k := by
  rw [val_main_v11_apply, val_main_v9_apply, val_main_v10_apply, val_main_cst_apply]
  have hl : ∀ d : Fin 64, lidx_main_v9 (ix4 b h q k) d = ix4 b h q d := fun d => funext fun a => by
    match a with
    | ⟨0, _⟩ => rfl
    | ⟨1, _⟩ => rfl
    | ⟨2, _⟩ => rfl
    | ⟨3, _⟩ => rfl
  have hr : ∀ d : Fin 64, ridx_main_v9 (ix4 b h q k) d = ix4 b h k d := fun d => funext fun a => by
    match a with
    | ⟨0, _⟩ => rfl
    | ⟨1, _⟩ => rfl
    | ⟨2, _⟩ => rfl
    | ⟨3, _⟩ => rfl
  have hs : (∑ d : Fin 64, val_main_v6 (F := Ideal) x0 x1 x2 (lidx_main_v9 (ix4 b h q k) d) * val_main_v7 (F := Ideal) x0 x1 x2 (ridx_main_v9 (ix4 b h q k) d))
      = ∑ d : Fin 64, headProj 0 x0 x1 x2 (ix4 b h q d) * headProj 1 x0 x1 x2 (ix4 b h k d) :=
    Finset.sum_congr rfl fun d _ => by rw [hl d, hr d, query_at, key_at]
  rw [hs]
  exact hdiv _

/-! ## The row maximum -/

/-- The maximum-reduce over the key axis, read free of its order: the fold of max from minus infinity over the 2048
    key positions. -/
theorem rowMax_fold (x0 : (⟨S4x2048x1024, .f32⟩ : BufTy).Contents (Elt Ideal)) (x1 : (⟨S3072x1024, .f32⟩ : BufTy).Contents (Elt Ideal)) (x2 : (⟨S3072, .f32⟩ : BufTy).Contents (Elt Ideal))
    (hdiv : ∀ x : EReal, Ideal.div x (Ideal.ofBits .f32 0x41000000#32) = x * Ideal.ofBits .f32 0x3E000000#32)
    (b : Fin 4) (h : Fin 16) (q : Fin 2048) :
    val_main_v12 (F := Ideal) x0 x1 x2 (ix3 b h q) = rowMaxAt (headProj 0 x0 x1 x2) (headProj 1 x0 x1 x2) b h q := by
  have hR : S4x16x2048x2048.Reduces [3] S4x16x2048 := by decide
  unfold val_main_v12
  rw [Host.reduce_eq_fold_single (FloatOps.maximumf (F := Ideal) (φ := .f32)) (val_main_v11 (F := Ideal) x0 x1 x2) _
    reducesTo_S4x16x2048x2048_S4x16x2048_d3 hR h_S_]
  have hf : (val_main_v11 (F := Ideal) x0 x1 x2 ∘ hR.lift (ix3 b h q))
      = fun k : Fin 2048 => scoreAt (headProj 0 x0 x1 x2) (headProj 1 x0 x1 x2) b h q k := funext fun k => by
    have hk : hR.lift (ix3 b h q) k = ix4 b h q (⟨k.val, k.isLt⟩ : Fin 2048) := funext fun a => Fin.ext (by
      match a with
    | ⟨0, _⟩ => rfl
    | ⟨1, _⟩ => rfl
    | ⟨2, _⟩ => rfl
    | ⟨3, _⟩ => rfl)
    show val_main_v11 (F := Ideal) x0 x1 x2 (hR.lift (ix3 b h q) k) = _
    rw [hk, score_at x0 x1 x2 hdiv]
    rfl
  exact congrArg (fun f => Finset.fold max (Ideal.ofBits .f32 0xFF800000#32) f (Finset.univ : Finset (Fin 2048))) hf

/-- The maximum of minus infinity and the row maximum is the row maximum: a fold of max is at least its start. -/
theorem rowMax_at (x0 : (⟨S4x2048x1024, .f32⟩ : BufTy).Contents (Elt Ideal)) (x1 : (⟨S3072x1024, .f32⟩ : BufTy).Contents (Elt Ideal)) (x2 : (⟨S3072, .f32⟩ : BufTy).Contents (Elt Ideal))
    (hdiv : ∀ x : EReal, Ideal.div x (Ideal.ofBits .f32 0x41000000#32) = x * Ideal.ofBits .f32 0x3E000000#32)
    (b : Fin 4) (h : Fin 16) (q : Fin 2048) :
    val_main_v14 (F := Ideal) x0 x1 x2 (ix3 b h q) = rowMaxAt (headProj 0 x0 x1 x2) (headProj 1 x0 x1 x2) b h q := by
  rw [val_main_v14_apply, val_main_v13_apply, val_main_cst_1_apply, rowMax_fold x0 x1 x2 hdiv]
  exact max_eq_right ((Finset.le_fold_max _).mpr (Or.inl le_rfl))

/-! ## The softmax -/

/-- The shifted score, exponentiated. -/
theorem exp_at (x0 : (⟨S4x2048x1024, .f32⟩ : BufTy).Contents (Elt Ideal)) (x1 : (⟨S3072x1024, .f32⟩ : BufTy).Contents (Elt Ideal)) (x2 : (⟨S3072, .f32⟩ : BufTy).Contents (Elt Ideal))
    (hdiv : ∀ x : EReal, Ideal.div x (Ideal.ofBits .f32 0x41000000#32) = x * Ideal.ofBits .f32 0x3E000000#32)
    (b : Fin 4) (h : Fin 16) (q k : Fin 2048) :
    val_main_v18 (F := Ideal) x0 x1 x2 (ix4 b h q k) = expAt (headProj 0 x0 x1 x2) (headProj 1 x0 x1 x2) b h q k := by
  have hi : idx_main_v15 (idx_main_v16 (ix4 b h q k)) = ix3 b h q := funext fun a => by
    match a with
    | ⟨0, _⟩ => rfl
    | ⟨1, _⟩ => rfl
    | ⟨2, _⟩ => rfl
  rw [val_main_v18_apply, val_main_v17_apply, val_main_v16_apply, val_main_v15_apply, hi, rowMax_at x0 x1 x2 hdiv,
    score_at x0 x1 x2 hdiv]
  rfl

/-- The row's sum of exponentials, from a zero initial value. -/
theorem denom_at (x0 : (⟨S4x2048x1024, .f32⟩ : BufTy).Contents (Elt Ideal)) (x1 : (⟨S3072x1024, .f32⟩ : BufTy).Contents (Elt Ideal)) (x2 : (⟨S3072, .f32⟩ : BufTy).Contents (Elt Ideal))
    (hdiv : ∀ x : EReal, Ideal.div x (Ideal.ofBits .f32 0x41000000#32) = x * Ideal.ofBits .f32 0x3E000000#32)
    (b : Fin 4) (h : Fin 16) (q : Fin 2048) :
    val_main_v19 (F := Ideal) x0 x1 x2 (ix3 b h q) = denomAt (headProj 0 x0 x1 x2) (headProj 1 x0 x1 x2) b h q := by
  rw [val_main_v19_apply, val_main_cst_2_apply]
  have hi : ∀ k : Fin 2048, idx_main_v19 (ix3 b h q) k = ix4 b h q k := fun k => funext fun a => by
    match a with
    | ⟨0, _⟩ => rfl
    | ⟨1, _⟩ => rfl
    | ⟨2, _⟩ => rfl
    | ⟨3, _⟩ => rfl
  have hs : (∑ k : Fin 2048, val_main_v18 (F := Ideal) x0 x1 x2 (idx_main_v19 (ix3 b h q) k))
      = ∑ k : Fin 2048, expAt (headProj 0 x0 x1 x2) (headProj 1 x0 x1 x2) b h q k :=
    Finset.sum_congr rfl fun k _ => by rw [hi k, exp_at x0 x1 x2 hdiv]
  rw [hs]
  show Ideal.ofBits .f32 0x00000000#32 + _ = _
  rw [Ideal.ofBits_zero_f32, zero_add]
  rfl

/-- The softmax probability. -/
theorem prob_at (x0 : (⟨S4x2048x1024, .f32⟩ : BufTy).Contents (Elt Ideal)) (x1 : (⟨S3072x1024, .f32⟩ : BufTy).Contents (Elt Ideal)) (x2 : (⟨S3072, .f32⟩ : BufTy).Contents (Elt Ideal))
    (hdiv : ∀ x : EReal, Ideal.div x (Ideal.ofBits .f32 0x41000000#32) = x * Ideal.ofBits .f32 0x3E000000#32)
    (b : Fin 4) (h : Fin 16) (q k : Fin 2048) :
    val_main_v22 (F := Ideal) x0 x1 x2 (ix4 b h q k) = probAt (headProj 0 x0 x1 x2) (headProj 1 x0 x1 x2) b h q k := by
  have hi : idx_main_v20 (idx_main_v21 (ix4 b h q k)) = ix3 b h q := funext fun a => by
    match a with
    | ⟨0, _⟩ => rfl
    | ⟨1, _⟩ => rfl
    | ⟨2, _⟩ => rfl
  rw [val_main_v22_apply, val_main_v21_apply, val_main_v20_apply, hi, denom_at x0 x1 x2 hdiv, exp_at x0 x1 x2 hdiv]
  rfl

/-! ## The context rows -/

/-- Lane d of the context row of query position q: the probabilities' combination of the value rows. -/
theorem ctxAt_at (x0 : (⟨S4x2048x1024, .f32⟩ : BufTy).Contents (Elt Ideal)) (x1 : (⟨S3072x1024, .f32⟩ : BufTy).Contents (Elt Ideal)) (x2 : (⟨S3072, .f32⟩ : BufTy).Contents (Elt Ideal))
    (hdiv : ∀ x : EReal, Ideal.div x (Ideal.ofBits .f32 0x41000000#32) = x * Ideal.ofBits .f32 0x3E000000#32)
    (b : Fin 4) (h : Fin 16) (q : Fin 2048) (d : Fin 64) :
    val_main_v23 (F := Ideal) x0 x1 x2 (ix4 b h q d) = ctxAt (headProj 0 x0 x1 x2) (headProj 1 x0 x1 x2) (headProj 2 x0 x1 x2) b h q d := by
  rw [val_main_v23_apply]
  have hl : ∀ k : Fin 2048, lidx_main_v23 (ix4 b h q d) k = ix4 b h q k := fun k => funext fun a => by
    match a with
    | ⟨0, _⟩ => rfl
    | ⟨1, _⟩ => rfl
    | ⟨2, _⟩ => rfl
    | ⟨3, _⟩ => rfl
  have hr : ∀ k : Fin 2048, ridx_main_v23 (ix4 b h q d) k = ix4 b h k d := fun k => funext fun a => by
    match a with
    | ⟨0, _⟩ => rfl
    | ⟨1, _⟩ => rfl
    | ⟨2, _⟩ => rfl
    | ⟨3, _⟩ => rfl
  exact Finset.sum_congr rfl fun k _ => by rw [hl k, hr k, prob_at x0 x1 x2 hdiv, value_at]

/-- The heads' context rows side by side: column e of position s is lane e % 64 of head e / 64. -/
theorem ctx_at (x0 : (⟨S4x2048x1024, .f32⟩ : BufTy).Contents (Elt Ideal)) (x1 : (⟨S3072x1024, .f32⟩ : BufTy).Contents (Elt Ideal)) (x2 : (⟨S3072, .f32⟩ : BufTy).Contents (Elt Ideal))
    (hdiv : ∀ x : EReal, Ideal.div x (Ideal.ofBits .f32 0x41000000#32) = x * Ideal.ofBits .f32 0x3E000000#32)
    (b : Fin 4) (s : Fin 2048) (e : Fin 1024) :
    val_main_v25 (F := Ideal) x0 x1 x2 (ix3 b s e) = ctx (headProj 0 x0 x1 x2) (headProj 1 x0 x1 x2) (headProj 2 x0 x1 x2) (ix3 b s e) := by
  have hi : idx_main_v24 (idx_main_v25 (ix3 b s e)) = ix4 b (headOf e) s (laneOf e) := funext fun a => Fin.ext (by
    have hb := b.isLt; have hs := s.isLt; have he := e.isLt
    match a with
    | ⟨0, _⟩ => show ((b.val * 2048 + s.val) * 1024 + e.val) / 2097152 = b.val; omega
    | ⟨1, _⟩ => show ((b.val * 2048 + s.val) * 1024 + e.val) / 64 % 16 = e.val / 64; omega
    | ⟨2, _⟩ => show ((b.val * 2048 + s.val) * 1024 + e.val) / 1024 % 2048 = s.val; omega
    | ⟨3, _⟩ => show ((b.val * 2048 + s.val) * 1024 + e.val) % 64 = e.val % 64; omega)
  rw [val_main_v25_apply, val_main_v24_apply, hi, ctxAt_at x0 x1 x2 hdiv, ctx_ix3]

/-! ## The output projection -/

/-- The output projection at (b, s, f): row f of the output weight against the context row, plus the bias at f. -/
theorem out_at (x0 : (⟨S4x2048x1024, .f32⟩ : BufTy).Contents (Elt Ideal)) (x1 : (⟨S3072x1024, .f32⟩ : BufTy).Contents (Elt Ideal)) (x2 : (⟨S3072, .f32⟩ : BufTy).Contents (Elt Ideal))
    (x3 : (⟨S1024x1024, .f32⟩ : BufTy).Contents (Elt Ideal)) (x4 : (⟨S1024, .f32⟩ : BufTy).Contents (Elt Ideal))
    (hdiv : ∀ x : EReal, Ideal.div x (Ideal.ofBits .f32 0x41000000#32) = x * Ideal.ofBits .f32 0x3E000000#32)
    (b : Fin 4) (s : Fin 2048) (f : Fin 1024) :
    val_main_v29 (F := Ideal) x0 x1 x2 x3 x4 (ix3 b s f) = outAt (ctx (headProj 0 x0 x1 x2) (headProj 1 x0 x1 x2) (headProj 2 x0 x1 x2)) x3 x4 b s f := by
  rw [val_main_v29_apply, val_main_v26_apply, val_main_v28_apply, val_main_v27_apply]
  have hl : ∀ k : Fin 1024, lidx_main_v26 (ix3 b s f) k = ix3 b s k := fun k => funext fun a => by
    match a with
    | ⟨0, _⟩ => rfl
    | ⟨1, _⟩ => rfl
    | ⟨2, _⟩ => rfl
  have hr : ∀ k : Fin 1024, ridx_main_v26 (ix3 b s f) k = ix2 f k := fun k => funext fun a => by
    match a with
    | ⟨0, _⟩ => rfl
    | ⟨1, _⟩ => rfl
  have hb : idx_main_v27 (idx_main_v28 (ix3 b s f)) = ix1 f := funext fun a => by
    match a with
    | ⟨0, _⟩ => rfl
  exact congrArg₂ (· + ·) (Finset.sum_congr rfl fun k _ => by rw [hl k, hr k, ctx_at x0 x1 x2 hdiv]) (congrArg x4 hb)

/-- The reference's result is the specification's function of the five arguments, given that dividing by eight is
    multiplying by one eighth. -/
theorem result_eq_of_div (x0 : (⟨S4x2048x1024, .f32⟩ : BufTy).Contents (Elt Ideal)) (x1 : (⟨S3072x1024, .f32⟩ : BufTy).Contents (Elt Ideal)) (x2 : (⟨S3072, .f32⟩ : BufTy).Contents (Elt Ideal))
    (x3 : (⟨S1024x1024, .f32⟩ : BufTy).Contents (Elt Ideal)) (x4 : (⟨S1024, .f32⟩ : BufTy).Contents (Elt Ideal))
    (hdiv : ∀ x : EReal, Ideal.div x (Ideal.ofBits .f32 0x41000000#32) = x * Ideal.ofBits .f32 0x3E000000#32) :
    val_main_v29 (F := Ideal) x0 x1 x2 x3 x4 = result x0 x1 x2 x3 x4 :=
  funext fun i => (congrArg (val_main_v29 (F := Ideal) x0 x1 x2 x3 x4) (eq_ix3 i)).trans
    (out_at x0 x1 x2 x3 x4 hdiv (i 0) (i 1) (i 2))

/-- The reference's result is the specification's function of the five arguments: eight is a nonzero real, so
    dividing by it is multiplying by one eighth. -/
theorem result_eq (x0 : (⟨S4x2048x1024, .f32⟩ : BufTy).Contents (Elt Ideal)) (x1 : (⟨S3072x1024, .f32⟩ : BufTy).Contents (Elt Ideal)) (x2 : (⟨S3072, .f32⟩ : BufTy).Contents (Elt Ideal))
    (x3 : (⟨S1024x1024, .f32⟩ : BufTy).Contents (Elt Ideal)) (x4 : (⟨S1024, .f32⟩ : BufTy).Contents (Elt Ideal)) :
    Cert.ReferenceIdeal.Read.val_main_v29 (F := Ideal) x0 x1 x2 x3 x4 = Cert.Attention.result x0 x1 x2 x3 x4 :=
  result_eq_of_div x0 x1 x2 x3 x4 Cert.Consts.div_eight

end Cert.ReferenceIdeal.RefValue

end
-- ==== Proof.lean ====
/-
  A fused multi-head attention layer, computed in three blocked stages, against its plain definition.

  The plain definition (the reference): a fused projection of each position's 1024 features to 3072 numbers, laid
  out head by head as 64 query, 64 key and 64 value lanes; per batch and head, scores = query · keyᵀ / 8, a softmax
  along the key axis (shift by the row maximum, exponentiate, divide by the row sum), context = probabilities ·
  value; the 16 heads' context rows side by side, sent through an output projection with bias.

  The blocked computation: (1) the fused weight's rows are rearranged on the host — all query rows, then all key
  rows, then all value rows, by a literal table of row numbers — and a first stage computes, per batch and tile of
  512 positions, the whole 3072-wide projection and stores its three 1024-wide thirds as per-head arrays; (2) a
  second stage computes, per batch, group of four heads and tile of 512 query positions, the four heads' attention
  against all 2048 key positions (scores times 0.125, the same shifted softmax, probabilities · value) and stores
  the four 64-wide results side by side at the group's columns; (3) a third stage applies the output projection
  to tiles of 512 flattened rows. Over the extended reals every change of float format is the identity, a product
  with the float 0.125 is the quotient by the float 8, and a matrix product is the same sum over the contracted
  index on both sides, so the two programs compute one function of the five arguments, index by index:
  `Cert.Attention.result`. No step needs the inputs to be finite.

  The modules: AttentionSpec and AttentionBlock state the function (whole arrays; one tile); QkvValue, AttnPayload
  with AttnArray, and LinearValue read what each stage leaves in its output arrays; Rearrange reads the literal
  table and the two gathers; KernelRun names the result buffer after the run; HostGlue chains the stages through
  the host operations between them; RefValue reads the reference's run, operation by operation, as the same
  function; Consts evaluates the two float words 8 and 0.125.
-/
import proofs.«128969_j32315333935918_2_alg».proof.Defs
import proofs.«128969_j32315333935918_2_alg».proof.Proof.Gen.Kernel
import proofs.«128969_j32315333935918_2_alg».proof.Proof.Gen.Kernel.Skeleton
import proofs.«128969_j32315333935918_2_alg».proof.Proof.Gen.Kernel.Launch
import proofs.«128969_j32315333935918_2_alg».proof.Proof.Gen.Kernel.Points
import proofs.«128969_j32315333935918_2_alg».proof.Proof.Gen.Kernel.Frame
import proofs.«128969_j32315333935918_2_alg».proof.Proof.Gen.KernelIdeal
import proofs.«128969_j32315333935918_2_alg».proof.Proof.Gen.KernelIdeal.Skeleton
import proofs.«128969_j32315333935918_2_alg».proof.Proof.Gen.KernelIdeal.Launch
import proofs.«128969_j32315333935918_2_alg».proof.Proof.Gen.KernelIdeal.Points
import proofs.«128969_j32315333935918_2_alg».proof.Proof.Gen.KernelIdeal.Frame
import proofs.«128969_j32315333935918_2_alg».proof.Proof.Gen.ReferenceIdeal
import proofs.«128969_j32315333935918_2_alg».proof.Proof.Gen.Pre_finite_inputs
import proofs.«128969_j32315333935918_2_alg».proof.Proof.Gen.ReferenceIdeal.Run
import proofs.«128969_j32315333935918_2_alg».proof.Proof.Gen.ReferenceIdeal.Read
import proofs.«128969_j32315333935918_2_alg».proof.Proof.KernelRun
import proofs.«128969_j32315333935918_2_alg».proof.Proof.HostGlue
import proofs.«128969_j32315333935918_2_alg».proof.Proof.QkvValue
import proofs.«128969_j32315333935918_2_alg».proof.Proof.AttnPayload
import proofs.«128969_j32315333935918_2_alg».proof.Proof.AttnArray
import proofs.«128969_j32315333935918_2_alg».proof.Proof.LinearValue
import proofs.«128969_j32315333935918_2_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs, run from memories that agree on the five arguments, end with the result array at the
    specification's function of those arguments. -/
theorem algebraic : Cert.algebraic_KernelIdeal_ReferenceIdeal := by
  intro m ρ m' ρ' _ hagree
  refine ⟨fun c => Cert.Attention.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Glue.result_eq m ρ
          Cert.KernelIdeal.QkvValue.final_q Cert.KernelIdeal.QkvValue.final_k Cert.KernelIdeal.QkvValue.final_v
          (Cert.KernelIdeal.AttnArray.final_ctx_of Cert.KernelIdeal.AttnPayload.out_apply)
          Cert.KernelIdeal.LinearValue.final_lin c), (h c).2⟩)
      (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v29_eq, Cert.ReferenceIdeal.RefValue.result_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
